-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x34 : Shape := ⟨2, ![500000, 34]⟩
abbrev S2x8000000 : Shape := ⟨2, ![2, 8000000]⟩
abbrev S34x4 : Shape := ⟨2, ![34, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x4 : Shape := ⟨2, ![2, 4]⟩
abbrev S_ : Shape := ⟨0, ![]⟩

class Facts : Prop where
  bcast_S_S500000x34 : S_.BroadcastsInDim S500000x34 (![] : Fin 0 → Fin S500000x34.rank)
  reducesTo_S500000x34_S_d0_1 : S500000x34.ReducesTo [0, 1] S_
  h_S_ : 0 < S_.numel
  bcast_S_S34x4 : S_.BroadcastsInDim S34x4 (![] : Fin 0 → Fin S34x4.rank)
  reducesTo_S34x4_S_d0_1 : S34x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_
  bcast_S_S2x4 : S_.BroadcastsInDim S2x4 (![] : Fin 0 → Fin S2x4.rank)
  reducesTo_S2x4_S_d0_1 : S2x4.ReducesTo [0, 1] S_

variable [Facts]

def fn_part2 {F : FTy → Type} [FloatOps F] (main_arg8 : FVec F S2x4 .f32) (main_arg9 : FVec F S4 .f32) (main_v33 : IVec S_ 1) : IVec S_ 1 :=
  let main_v34 : FVec F S2x4 .f32 := Host.absf main_arg8
  let main_cst_12 : FVec F S_ .f32 := constant S_ .f32 0x7F800000#32
  let main_v35 : FVec F S2x4 .f32 := broadcastInDim S2x4 ![] bcast_S_S2x4 main_cst_12
  let main_v36 : IVec S2x4 1 := cmpf .olt main_v34 main_v35
  let main_c_13 : IVec S_ 1 := constantI S_ 1 1#1
  let main_v37 : IVec S_ 1 := (fun x v => Host.reduce IntOp.andi x v reducesTo_S2x4_S_d0_1 h_S_) main_v36 main_c_13
  let main_v38 : IVec S_ 1 := andi main_v33 main_v37
  let main_v39 : FVec F S4 .f32 := Host.absf main_arg9
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg5 : FVec F S4 .f32) (main_arg6 : FVec F S4x2 .f32) (main_arg7 : FVec F S2 .f32) (main_arg8 : FVec F S2x4 .f32) (main_arg9 : FVec F S4 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x2 .f32 := Host.absf main_arg6
  let main_cst_8 : FVec F S_ .f32 := constant S_ .f32 0x7F800000#32
  let main_v25 : FVec F S4x2 .f32 := broadcastInDim S4x2 ![] bcast_S_S4x2 main_cst_8
  let main_v26 : IVec S4x2 1 := cmpf .olt main_v24 main_v25
  let main_c_9 : IVec S_ 1 := constantI S_ 1 1#1
  let main_v27 : IVec S_ 1 := (fun x v => Host.reduce IntOp.andi x v reducesTo_S4x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg8 main_arg9 main_v33

def fn {F : FTy → Type} [FloatOps F] (main_arg0 : FVec F S500000x34 .f32) (main_arg1 : IVec S2x8000000 32) (main_arg2 : FVec F S34x4 .f32) (main_arg3 : FVec F S4 .f32) (main_arg4 : FVec F S4x4 .f32) (main_arg5 : FVec F S4 .f32) (main_arg6 : FVec F S4x2 .f32) (main_arg7 : FVec F S2 .f32) (main_arg8 : FVec F S2x4 .f32) (main_arg9 : FVec F S4 .f32) : IVec S_ 1 :=
  let main_v0 : FVec F S500000x34 .f32 := Host.absf main_arg0
  let main_cst : FVec F S_ .f32 := constant S_ .f32 0x7F800000#32
  let main_v1 : FVec F S500000x34 .f32 := broadcastInDim S500000x34 ![] bcast_S_S500000x34 main_cst
  let main_v2 : IVec S500000x34 1 := cmpf .olt main_v0 main_v1
  let main_c : IVec S_ 1 := constantI S_ 1 1#1
  let main_v3 : IVec S_ 1 := (fun x v => Host.reduce IntOp.andi x v reducesTo_S500000x34_S_d0_1 h_S_) main_v2 main_c
  let main_v4 : FVec F S34x4 .f32 := Host.absf main_arg2
  let main_cst_0 : FVec F S_ .f32 := constant S_ .f32 0x7F800000#32
  let main_v5 : FVec F S34x4 .f32 := broadcastInDim S34x4 ![] bcast_S_S34x4 main_cst_0
  let main_v6 : IVec S34x4 1 := cmpf .olt main_v4 main_v5
  let main_c_1 : IVec S_ 1 := constantI S_ 1 1#1
  let main_v7 : IVec S_ 1 := (fun x v => Host.reduce IntOp.andi x v reducesTo_S34x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x4 .f32 := Host.absf main_arg4
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg5 main_arg6 main_arg7 main_arg8 main_arg9 main_v13 main_v16
-- ==== Kernel.lean ====
abbrev S500000x34 : Shape := ⟨2, ![500000, 34]⟩
abbrev S2x8000000 : Shape := ⟨2, ![2, 8000000]⟩
abbrev S34x4 : Shape := ⟨2, ![34, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x4 : Shape := ⟨2, ![2, 4]⟩
abbrev S500000 : Shape := ⟨1, ![500000]⟩
abbrev S1x8000000 : Shape := ⟨2, ![1, 8000000]⟩
abbrev S8000000 : Shape := ⟨1, ![8000000]⟩
abbrev S8500000 : Shape := ⟨1, ![8500000]⟩
abbrev S_ : Shape := ⟨0, ![]⟩
abbrev S8500000x1 : Shape := ⟨2, ![8500000, 1]⟩
abbrev S1x4 : Shape := ⟨2, ![1, 4]⟩
abbrev S500000x4 : Shape := ⟨2, ![500000, 4]⟩
abbrev S5000x34 : Shape := ⟨2, ![5000, 34]⟩
abbrev S5000x4 : Shape := ⟨2, ![5000, 4]⟩
abbrev S8500000x4 : Shape := ⟨2, ![8500000, 4]⟩
abbrev S1x2 : Shape := ⟨2, ![1, 2]⟩
abbrev S500000x2 : Shape := ⟨2, ![500000, 2]⟩
abbrev S5000x2 : Shape := ⟨2, ![5000, 2]⟩
abbrev S8500000x2 : Shape := ⟨2, ![8500000, 2]⟩

abbrev nBuf : Space → Nat
  | .hbm => 113
  | .vmem => 39
  | .smem => 0
  | _ => 0

abbrev bufTy : (tb : Table) → Fin (tcTables nBuf tb) → BufTy
  | .hbm, ⟨0, _⟩ => ⟨S500000x34, .f32⟩
  | .hbm, ⟨1, _⟩ => ⟨S2x8000000, .i32⟩
  | .hbm, ⟨2, _⟩ => ⟨S34x4, .f32⟩
  | .hbm, ⟨3, _⟩ => ⟨S4, .f32⟩
  | .hbm, ⟨4, _⟩ => ⟨S4x4, .f32⟩
  | .hbm, ⟨5, _⟩ => ⟨S4, .f32⟩
  | .hbm, ⟨6, _⟩ => ⟨S4x2, .f32⟩
  | .hbm, ⟨7, _⟩ => ⟨S2, .f32⟩
  | .hbm, ⟨8, _⟩ => ⟨S2x4, .f32⟩
  | .hbm, ⟨9, _⟩ => ⟨S4, .f32⟩
  | .hbm, ⟨10, _⟩ => ⟨S500000, .i32⟩
  | .hbm, ⟨11, _⟩ => ⟨S1x8000000, .i32⟩
  | .hbm, ⟨12, _⟩ => ⟨S8000000, .i32⟩
  | .hbm, ⟨13, _⟩ => ⟨S8500000, .i32⟩
  | .hbm, ⟨14, _⟩ => ⟨S1x8000000, .i32⟩
  | .hbm, ⟨15, _⟩ => ⟨S8000000, .i32⟩
  | .hbm, ⟨16, _⟩ => ⟨S8500000, .i32⟩
  | .hbm, ⟨17, _⟩ => ⟨S_, .f32⟩
  | .hbm, ⟨18, _⟩ => ⟨S8500000, .f32⟩
  | .hbm, ⟨19, _⟩ => ⟨S_, .f32⟩
  | .hbm, ⟨20, _⟩ => ⟨S500000, .f32⟩
  | .hbm, ⟨21, _⟩ => ⟨S8500000x1, .i32⟩
  | .hbm, ⟨22, _⟩ => ⟨S500000, .f32⟩
  | .hbm, ⟨23, _⟩ => ⟨S_, .f32⟩
  | .hbm, ⟨24, _⟩ => ⟨S500000, .f32⟩
  | .hbm, ⟨25, _⟩ => ⟨S500000, .i1⟩
  | .hbm, ⟨26, _⟩ => ⟨S500000, .f32⟩
  | .hbm, ⟨27, _⟩ => ⟨S_, .f32⟩
  | .hbm, ⟨28, _⟩ => ⟨S_, .f32⟩
  | .hbm, ⟨29, _⟩ => ⟨S500000, .f32⟩
  | .hbm, ⟨30, _⟩ => ⟨S500000, .f32⟩
  | .hbm, ⟨31, _⟩ => ⟨S_, .i32⟩
  | .hbm, ⟨32, _⟩ => ⟨S8500000, .i32⟩
  | .hbm, ⟨33, _⟩ => ⟨S8500000, .i1⟩
  | .hbm, ⟨34, _⟩ => ⟨S_, .i32⟩
  | .hbm, ⟨35, _⟩ => ⟨S8500000, .i32⟩
  | .hbm, ⟨36, _⟩ => ⟨S8500000, .i32⟩
  | .hbm, ⟨37, _⟩ => ⟨S8500000, .i32⟩
  | .hbm, ⟨38, _⟩ => ⟨S8500000x1, .i32⟩
  | .hbm, ⟨39, _⟩ => ⟨S8500000, .f32⟩
  | .hbm, ⟨40, _⟩ => ⟨S_, .i32⟩
  | .hbm, ⟨41, _⟩ => ⟨S8500000, .i32⟩
  | .hbm, ⟨42, _⟩ => ⟨S8500000, .i1⟩
  | .hbm, ⟨43, _⟩ => ⟨S_, .i32⟩
  | .hbm, ⟨44, _⟩ => ⟨S8500000, .i32⟩
  | .hbm, ⟨45, _⟩ => ⟨S8500000, .i32⟩
  | .hbm, ⟨46, _⟩ => ⟨S8500000, .i32⟩
  | .hbm, ⟨47, _⟩ => ⟨S8500000x1, .i32⟩
  | .hbm, ⟨48, _⟩ => ⟨S8500000, .f32⟩
  | .hbm, ⟨49, _⟩ => ⟨S8500000, .f32⟩
  | .hbm, ⟨50, _⟩ => ⟨S8500000x1, .f32⟩
  | .hbm, ⟨51, _⟩ => ⟨S_, .f32⟩
  | .hbm, ⟨52, _⟩ => ⟨S1x4, .f32⟩
  | .hbm, ⟨53, _⟩ => ⟨S500000x4, .f32⟩
  | .hbm, ⟨54, _⟩ => ⟨S_, .i32⟩
  | .hbm, ⟨55, _⟩ => ⟨S8500000, .i32⟩
  | .hbm, ⟨56, _⟩ => ⟨S8500000, .i1⟩
  | .hbm, ⟨57, _⟩ => ⟨S_, .i32⟩
  | .hbm, ⟨58, _⟩ => ⟨S8500000, .i32⟩
  | .hbm, ⟨59, _⟩ => ⟨S8500000, .i32⟩
  | .hbm, ⟨60, _⟩ => ⟨S8500000, .i32⟩
  | .hbm, ⟨61, _⟩ => ⟨S8500000x1, .i32⟩
  | .hbm, ⟨62, _⟩ => ⟨S8500000x4, .f32⟩
  | .hbm, ⟨63, _⟩ => ⟨S8500000x4, .f32⟩
  | .hbm, ⟨64, _⟩ => ⟨S8500000x4, .f32⟩
  | .hbm, ⟨65, _⟩ => ⟨S_, .f32⟩
  | .hbm, ⟨66, _⟩ => ⟨S500000x4, .f32⟩
  | .hbm, ⟨67, _⟩ => ⟨S8500000x1, .i32⟩
  | .hbm, ⟨68, _⟩ => ⟨S500000x4, .f32⟩
  | .hbm, ⟨69, _⟩ => ⟨S1x4, .f32⟩
  | .hbm, ⟨70, _⟩ => ⟨S500000x4, .f32⟩
  | .hbm, ⟨71, _⟩ => ⟨S_, .f32⟩
  | .hbm, ⟨72, _⟩ => ⟨S1x4, .f32⟩
  | .hbm, ⟨73, _⟩ => ⟨S500000x4, .f32⟩
  | .hbm, ⟨74, _⟩ => ⟨S_, .i32⟩
  | .hbm, ⟨75, _⟩ => ⟨S8500000, .i32⟩
  | .hbm, ⟨76, _⟩ => ⟨S8500000, .i1⟩
  | .hbm, ⟨77, _⟩ => ⟨S_, .i32⟩
  | .hbm, ⟨78, _⟩ => ⟨S8500000, .i32⟩
  | .hbm, ⟨79, _⟩ => ⟨S8500000, .i32⟩
  | .hbm, ⟨80, _⟩ => ⟨S8500000, .i32⟩
  | .hbm, ⟨81, _⟩ => ⟨S8500000x1, .i32⟩
  | .hbm, ⟨82, _⟩ => ⟨S8500000x4, .f32⟩
  | .hbm, ⟨83, _⟩ => ⟨S8500000x4, .f32⟩
  | .hbm, ⟨84, _⟩ => ⟨S8500000x4, .f32⟩
  | .hbm, ⟨85, _⟩ => ⟨S_, .f32⟩
  | .hbm, ⟨86, _⟩ => ⟨S500000x4, .f32⟩
  | .hbm, ⟨87, _⟩ => ⟨S8500000x1, .i32⟩
  | .hbm, ⟨88, _⟩ => ⟨S500000x4, .f32⟩
  | .hbm, ⟨89, _⟩ => ⟨S1x4, .f32⟩
  | .hbm, ⟨90, _⟩ => ⟨S500000x4, .f32⟩
  | .hbm, ⟨91, _⟩ => ⟨S_, .f32⟩
  | .hbm, ⟨92, _⟩ => ⟨S1x2, .f32⟩
  | .hbm, ⟨93, _⟩ => ⟨S500000x2, .f32⟩
  | .hbm, ⟨94, _⟩ => ⟨S_, .i32⟩
  | .hbm, ⟨95, _⟩ => ⟨S8500000, .i32⟩
  | .hbm, ⟨96, _⟩ => ⟨S8500000, .i1⟩
  | .hbm, ⟨97, _⟩ => ⟨S_, .i32⟩
  | .hbm, ⟨98, _⟩ => ⟨S8500000, .i32⟩
  | .hbm, ⟨99, _⟩ => ⟨S8500000, .i32⟩
  | .hbm, ⟨100, _⟩ => ⟨S8500000, .i32⟩
  | .hbm, ⟨101, _⟩ => ⟨S8500000x1, .i32⟩
  | .hbm, ⟨102, _⟩ => ⟨S8500000x2, .f32⟩
  | .hbm, ⟨103, _⟩ => ⟨S8500000x2, .f32⟩
  | .hbm, ⟨104, _⟩ => ⟨S8500000x2, .f32⟩
  | .hbm, ⟨105, _⟩ => ⟨S_, .f32⟩
  | .hbm, ⟨106, _⟩ => ⟨S500000x2, .f32⟩
  | .hbm, ⟨107, _⟩ => ⟨S8500000x1, .i32⟩
  | .hbm, ⟨108, _⟩ => ⟨S500000x2, .f32⟩
  | .hbm, ⟨109, _⟩ => ⟨S1x2, .f32⟩
  | .hbm, ⟨110, _⟩ => ⟨S500000x2, .f32⟩
  | .hbm, ⟨111, _⟩ => ⟨S1x4, .f32⟩
  | .hbm, ⟨112, _⟩ => ⟨S500000x4, .f32⟩
  | .local _ .vmem, ⟨0, _⟩ => ⟨S5000x34, .f32⟩
  | .local _ .vmem, ⟨1, _⟩ => ⟨S5000x34, .f32⟩
  | .local _ .vmem, ⟨2, _⟩ => ⟨S34x4, .f32⟩
  | .local _ .vmem, ⟨3, _⟩ => ⟨S1x4, .f32⟩
  | .local _ .vmem, ⟨4, _⟩ => ⟨S5000x4, .f32⟩
  | .local _ .vmem, ⟨5, _⟩ => ⟨S5000x4, .f32⟩
  | .local _ .vmem, ⟨6, _⟩ => ⟨S5000x4, .f32⟩
  | .local _ .vmem, ⟨7, _⟩ => ⟨S5000x4, .f32⟩
  | .local _ .vmem, ⟨8, _⟩ => ⟨S1x4, .f32⟩
  | .local _ .vmem, ⟨9, _⟩ => ⟨S5000x4, .f32⟩
  | .local _ .vmem, ⟨10, _⟩ => ⟨S5000x4, .f32⟩
  | .local _ .vmem, ⟨11, _⟩ => ⟨S5000x4, .f32⟩
  | .local _ .vmem, ⟨12, _⟩ => ⟨S5000x4, .f32⟩
  | .local _ .vmem, ⟨13, _⟩ => ⟨S4x4, .f32⟩
  | .local _ .vmem, ⟨14, _⟩ => ⟨S1x4, .f32⟩
  | .local _ .vmem, ⟨15, _⟩ => ⟨S5000x4, .f32⟩
  | .local _ .vmem, ⟨16, _⟩ => ⟨S5000x4, .f32⟩
  | .local _ .vmem, ⟨17, _⟩ => ⟨S5000x4, .f32⟩
  | .local _ .vmem, ⟨18, _⟩ => ⟨S5000x4, .f32⟩
  | .local _ .vmem, ⟨19, _⟩ => ⟨S1x4, .f32⟩
  | .local _ .vmem, ⟨20, _⟩ => ⟨S5000x4, .f32⟩
  | .local _ .vmem, ⟨21, _⟩ => ⟨S5000x4, .f32⟩
  | .local _ .vmem, ⟨22, _⟩ => ⟨S5000x4, .f32⟩
  | .local _ .vmem, ⟨23, _⟩ => ⟨S5000x4, .f32⟩
  | .local _ .vmem, ⟨24, _⟩ => ⟨S4x2, .f32⟩
  | .local _ .vmem, ⟨25, _⟩ => ⟨S1x2, .f32⟩
  | .local _ .vmem, ⟨26, _⟩ => ⟨S5000x2, .f32⟩
  | .local _ .vmem, ⟨27, _⟩ => ⟨S5000x2, .f32⟩
  | .local _ .vmem, ⟨28, _⟩ => ⟨S5000x2, .f32⟩
  | .local _ .vmem, ⟨29, _⟩ => ⟨S5000x2, .f32⟩
  | .local _ .vmem, ⟨30, _⟩ => ⟨S1x2, .f32⟩
  | .local _ .vmem, ⟨31, _⟩ => ⟨S5000x2, .f32⟩
  | .local _ .vmem, ⟨32, _⟩ => ⟨S5000x2, .f32⟩
  | .local _ .vmem, ⟨33, _⟩ => ⟨S5000x2, .f32⟩
  | .local _ .vmem, ⟨34, _⟩ => ⟨S5000x2, .f32⟩
  | .local _ .vmem, ⟨35, _⟩ => ⟨S2x4, .f32⟩
  | .local _ .vmem, ⟨36, _⟩ => ⟨S1x4, .f32⟩
  | .local _ .vmem, ⟨37, _⟩ => ⟨S5000x4, .f32⟩
  | .local _ .vmem, ⟨38, _⟩ => ⟨S5000x4, .f32⟩
  | _, _ => ⟨S500000x34, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_v64 : Ref sig .tc := ⟨.hbm, 93, rfl⟩
abbrev main_c_15 : Ref sig .tc := ⟨.hbm, 94, rfl⟩
abbrev main_v65 : Ref sig .tc := ⟨.hbm, 95, rfl⟩
abbrev main_v66 : Ref sig .tc := ⟨.hbm, 96, rfl⟩
abbrev main_c_16 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_17 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg3_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem3_0 : DmaSem sig := 37
abbrev cc6_sem3_1 : DmaSem sig := 38

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x34 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S34x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x4 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x4 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x4 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x4 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x2 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2x4 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x4 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x4 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x8000000_S1x8000000_0_0 : S2x8000000.Slices ![0, 0] S1x8000000
  shapeCasts_S1x8000000_S8000000 : S1x8000000.ShapeCasts S8000000
  concatenates_S8000000_S500000_S8500000_d0 : Shape.Concatenates [S8000000, S500000] S8500000 0
  slices_S2x8000000_S1x8000000_1_0 : S2x8000000.Slices ![1, 0] S1x8000000
  bcast_S_S8500000 : S_.BroadcastsInDim S8500000 (![] : Fin 0 → Fin S8500000.rank)
  bcast_S_S500000 : S_.BroadcastsInDim S500000 (![] : Fin 0 → Fin S500000.rank)
  bcast_S8500000_S8500000x1_0 : S8500000.BroadcastsInDim S8500000x1 (![0] : Fin 1 → Fin S8500000x1.rank)
  bcast_S_S1x4 : S_.BroadcastsInDim S1x4 (![] : Fin 0 → Fin S1x4.rank)
  inb_S5000x34_S5000x34_0_0 : ∀ a, (![0, 0] : Fin 2 → Nat) a + S5000x34.size a ≤ S5000x34.size a
  h_S5000x34 : 0 < S5000x34.numel
  bitsLt_bf16_f32 : FTy.bits .bf16 < FTy.bits .f32
  inb_S34x4_S34x4_0_0 : ∀ a, (![0, 0] : Fin 2 → Nat) a + S34x4.size a ≤ S34x4.size a
  h_S34x4 : 0 < S34x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  bcast_S8500000x1_S8500000x4_0_1 : S8500000x1.BroadcastsInDim S8500000x4 (![0, 1] : Fin 2 → Fin S8500000x4.rank)
  bcast_S_S500000x4 : S_.BroadcastsInDim S500000x4 (![] : Fin 0 → Fin S500000x4.rank)
  shapeCasts_S4_S1x4 : S4.ShapeCasts S1x4
  shapeCasts_S5000x4_S5000x4 : S5000x4.ShapeCasts S5000x4
  inb_S4x4_S4x4_0_0 : ∀ a, (![0, 0] : Fin 2 → Nat) a + S4x4.size a ≤ S4x4.size a
  h_S4x4 : 0 < S4x4.numel
  bcast_S_S1x2 : S_.BroadcastsInDim S1x2 (![] : Fin 0 → Fin S1x2.rank)
  inb_S4x2_S4x2_0_0 : ∀ a, (![0, 0] : Fin 2 → Nat) a + S4x2.size a ≤ S4x2.size a
  h_S4x2 : 0 < S4x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  bcast_S8500000x1_S8500000x2_0_1 : S8500000x1.BroadcastsInDim S8500000x2 (![0, 1] : Fin 2 → Fin S8500000x2.rank)
  bcast_S_S500000x2 : S_.BroadcastsInDim S500000x2 (![] : Fin 0 → Fin S500000x2.rank)
  shapeCasts_S2_S1x2 : S2.ShapeCasts S1x2
  shapeCasts_S5000x2_S5000x2 : S5000x2.ShapeCasts S5000x2
  inb_S2x4_S2x4_0_0 : ∀ a, (![0, 0] : Fin 2 → Nat) a + S2x4.size a ≤ S2x4.size a
  h_S2x4 : 0 < S2x4.numel
  scatter_S500000_S8500000x1_S8500000_n_0_0_1_wf : ScatterDims.WF S500000 S8500000x1 S8500000 [] [0] [0] 1
  gather_S500000_S8500000x1_S8500000_n_0_n_n_0_1_1_wf : GatherDims.WF S500000 S8500000x1 S8500000 [] [0] [] [0] [] 1 ![1]
  dot_S5000x34_S34x4_S5000x4_1_0_0_1_n_n_wf : DotDims.WF S5000x34 S34x4 S5000x4 [1] [0] [0] [1] [] []
  gather_S500000x4_S8500000x1_S8500000x4_1_0_n_n_0_1_14_wf : GatherDims.WF S500000x4 S8500000x1 S8500000x4 [1] [0] [] [0] [] 1 ![1, 4]
  scatter_S500000x4_S8500000x1_S8500000x4_1_0_0_1_wf : ScatterDims.WF S500000x4 S8500000x1 S8500000x4 [1] [0] [0] 1
  dot_S5000x4_S4x4_S5000x4_1_0_0_1_n_n_wf : DotDims.WF S5000x4 S4x4 S5000x4 [1] [0] [0] [1] [] []
  dot_S5000x4_S4x2_S5000x2_1_0_0_1_n_n_wf : DotDims.WF S5000x4 S4x2 S5000x2 [1] [0] [0] [1] [] []
  gather_S500000x2_S8500000x1_S8500000x2_1_0_n_n_0_1_12_wf : GatherDims.WF S500000x2 S8500000x1 S8500000x2 [1] [0] [] [0] [] 1 ![1, 2]
  scatter_S500000x2_S8500000x1_S8500000x2_1_0_0_1_wf : ScatterDims.WF S500000x2 S8500000x1 S8500000x2 [1] [0] [0] 1
  dot_S5000x2_S2x4_S5000x4_1_0_0_1_n_n_wf : DotDims.WF S5000x2 S2x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x34.size a ≤ S500000x34.size a
  hwx0_0 : ∀ i : grid0.Coords, EltTy.bits .f32 = 32 ∨ (Rect.block (s := S500000x34) S5000x34.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S34x4.size a ≤ S34x4.size a
  hwx0_1 : ∀ i : grid0.Coords, EltTy.bits .f32 = 32 ∨ (Rect.block (s := S34x4) S34x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x4.size a ≤ S500000x4.size a
  hwx0_3 : ∀ i : grid0.Coords, EltTy.bits .f32 = 32 ∨ (Rect.block (s := S500000x4) S5000x4.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x4.size a ≤ S500000x4.size a
  hwx1_0 : ∀ i : grid1.Coords, EltTy.bits .f32 = 32 ∨ (Rect.block (s := S500000x4) S5000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4.size a ≤ S1x4.size a
  hwx1_1 : ∀ i : grid1.Coords, EltTy.bits .f32 = 32 ∨ (Rect.block (s := S1x4) S1x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x4.size a ≤ S500000x4.size a
  hwx1_2 : ∀ i : grid1.Coords, EltTy.bits .f32 = 32 ∨ (Rect.block (s := S500000x4) S5000x4.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x4.size a ≤ S500000x4.size a
  hwx2_0 : ∀ i : grid2.Coords, EltTy.bits .f32 = 32 ∨ (Rect.block (s := S500000x4) S5000x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x4.size a ≤ S4x4.size a
  hwx2_1 : ∀ i : grid2.Coords, EltTy.bits .f32 = 32 ∨ (Rect.block (s := S4x4) S4x4.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4.size a ≤ S1x4.size a
  hwx2_2 : ∀ i : grid2.Coords, EltTy.bits .f32 = 32 ∨ (Rect.block (s := S1x4) S1x4.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x4.size a ≤ S500000x4.size a
  hwx2_3 : ∀ i : grid2.Coords, EltTy.bits .f32 = 32 ∨ (Rect.block (s := S500000x4) S5000x4.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x4.size a ≤ S500000x4.size a
  hwx3_0 : ∀ i : grid3.Coords, EltTy.bits .f32 = 32 ∨ (Rect.block (s := S500000x4) S5000x4.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x4.size a ≤ S1x4.size a
  hwx3_1 : ∀ i : grid3.Coords, EltTy.bits .f32 = 32 ∨ (Rect.block (s := S1x4) S1x4.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x4.size a ≤ S500000x4.size a
  hwx3_2 : ∀ i : grid3.Coords, EltTy.bits .f32 = 32 ∨ (Rect.block (s := S500000x4) S5000x4.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x4.size a ≤ S500000x4.size a
  hwx4_0 : ∀ i : grid4.Coords, EltTy.bits .f32 = 32 ∨ (Rect.block (s := S500000x4) S5000x4.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S4x2.size a ≤ S4x2.size a
  hwx4_1 : ∀ i : grid4.Coords, EltTy.bits .f32 = 32 ∨ (Rect.block (s := S4x2) S4x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x2.size a ≤ S500000x2.size a
  hwx4_3 : ∀ i : grid4.Coords, EltTy.bits .f32 = 32 ∨ (Rect.block (s := S500000x2) S5000x2.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x2.size a ≤ S500000x2.size a
  hwx5_0 : ∀ i : grid5.Coords, EltTy.bits .f32 = 32 ∨ (Rect.block (s := S500000x2) S5000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x2.size a ≤ S500000x2.size a
  hwx5_2 : ∀ i : grid5.Coords, EltTy.bits .f32 = 32 ∨ (Rect.block (s := S500000x2) S5000x2.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x2.size a ≤ S500000x2.size a
  hwx6_0 : ∀ i : grid6.Coords, EltTy.bits .f32 = 32 ∨ (Rect.block (s := S500000x2) S5000x2.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2x4.size a ≤ S2x4.size a
  hwx6_1 : ∀ i : grid6.Coords, EltTy.bits .f32 = 32 ∨ (Rect.block (s := S2x4) S2x4.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x4.size a ≤ S1x4.size a
  hwx6_2 : ∀ i : grid6.Coords, EltTy.bits .f32 = 32 ∨ (Rect.block (s := S1x4) S1x4.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x4.size a ≤ S500000x4.size a
  hwx6_3 : ∀ i : grid6.Coords, EltTy.bits .f32 = 32 ∨ (Rect.block (s := S500000x4) S5000x4.size (cc6_transform_3 i) (hinb6_3 i)).WholeWords (EltTy.packing .f32)

variable [Facts₀]

def scatter_S500000_S8500000x1_S8500000_n_0_0_1 : ScatterDims S500000 S8500000x1 S8500000 where
  updateWindowDims := []
  insertedWindowDims := [0]
  scatterDimsToOperandDims := [0]
  indexVectorDim := 1
  wf := scatter_S500000_S8500000x1_S8500000_n_0_0_1_wf
def gather_S500000_S8500000x1_S8500000_n_0_n_n_0_1_1 : GatherDims S500000 S8500000x1 S8500000 where
  offsetDims := []
  collapsedSliceDims := [0]
  operandBatchingDims := []
  startIndicesBatchingDims := []
  startIndexMap := [0]
  indexVectorDim := 1
  sliceSizes := ![1]
  wf := gather_S500000_S8500000x1_S8500000_n_0_n_n_0_1_1_wf
def dot_S5000x34_S34x4_S5000x4_1_0_0_1_n_n : DotDims S5000x34 S34x4 S5000x4 where
  lhsContracting := [1]
  rhsContracting := [0]
  lhsNonContracting := [0]
  rhsNonContracting := [1]
  lhsBatch := []
  rhsBatch := []
  wf := dot_S5000x34_S34x4_S5000x4_1_0_0_1_n_n_wf
def gather_S500000x4_S8500000x1_S8500000x4_1_0_n_n_0_1_14 : GatherDims S500000x4 S8500000x1 S8500000x4 where
  offsetDims := [1]
  collapsedSliceDims := [0]
  operandBatchingDims := []
  startIndicesBatchingDims := []
  startIndexMap := [0]
  indexVectorDim := 1
  sliceSizes := ![1, 4]
  wf := gather_S500000x4_S8500000x1_S8500000x4_1_0_n_n_0_1_14_wf
def scatter_S500000x4_S8500000x1_S8500000x4_1_0_0_1 : ScatterDims S500000x4 S8500000x1 S8500000x4 where
  updateWindowDims := [1]
  insertedWindowDims := [0]
  scatterDimsToOperandDims := [0]
  indexVectorDim := 1
  wf := scatter_S500000x4_S8500000x1_S8500000x4_1_0_0_1_wf
def dot_S5000x4_S4x4_S5000x4_1_0_0_1_n_n : DotDims S5000x4 S4x4 S5000x4 where
  lhsContracting := [1]
  rhsContracting := [0]
  lhsNonContracting := [0]
  rhsNonContracting := [1]
  lhsBatch := []
  rhsBatch := []
  wf := dot_S5000x4_S4x4_S5000x4_1_0_0_1_n_n_wf
def dot_S5000x4_S4x2_S5000x2_1_0_0_1_n_n : DotDims S5000x4 S4x2 S5000x2 where
  lhsContracting := [1]
  rhsContracting := [0]
  lhsNonContracting := [0]
  rhsNonContracting := [1]
  lhsBatch := []
  rhsBatch := []
  wf := dot_S5000x4_S4x2_S5000x2_1_0_0_1_n_n_wf
def gather_S500000x2_S8500000x1_S8500000x2_1_0_n_n_0_1_12 : GatherDims S500000x2 S8500000x1 S8500000x2 where
  offsetDims := [1]
  collapsedSliceDims := [0]
  operandBatchingDims := []
  startIndicesBatchingDims := []
  startIndexMap := [0]
  indexVectorDim := 1
  sliceSizes := ![1, 2]
  wf := gather_S500000x2_S8500000x1_S8500000x2_1_0_n_n_0_1_12_wf
def scatter_S500000x2_S8500000x1_S8500000x2_1_0_0_1 : ScatterDims S500000x2 S8500000x1 S8500000x2 where
  updateWindowDims := [1]
  insertedWindowDims := [0]
  scatterDimsToOperandDims := [0]
  indexVectorDim := 1
  wf := scatter_S500000x2_S8500000x1_S8500000x2_1_0_0_1_wf
def dot_S5000x2_S2x4_S5000x4_1_0_0_1_n_n : DotDims S5000x2 S2x4 S5000x4 where
  lhsContracting := [1]
  rhsContracting := [0]
  lhsNonContracting := [0]
  rhsNonContracting := [1]
  lhsBatch := []
  rhsBatch := []
  wf := dot_S5000x2_S2x4_S5000x4_1_0_0_1_n_n_wf

abbrev win0_0 : Pipeline.Window sig grid0 :=
  Pipeline.Window.ofSpec (Memref.whole main_arg0) S5000x34.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S34x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S5000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x4.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S4x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x4.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S5000x4.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v60) S5000x4.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x4.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x4.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S5000x4.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S4x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S5000x2.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v76) S5000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S5000x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v78) S5000x2.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S2x4.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S1x4.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v80) S5000x4.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S500000x34 : Shape := ⟨2, ![500000, 34]⟩
abbrev S2x8000000 : Shape := ⟨2, ![2, 8000000]⟩
abbrev S34x4 : Shape := ⟨2, ![34, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x4 : Shape := ⟨2, ![2, 4]⟩
abbrev S500000 : Shape := ⟨1, ![500000]⟩
abbrev S1x8000000 : Shape := ⟨2, ![1, 8000000]⟩
abbrev S8000000 : Shape := ⟨1, ![8000000]⟩
abbrev S8500000 : Shape := ⟨1, ![8500000]⟩
abbrev S_ : Shape := ⟨0, ![]⟩
abbrev S8500000x1 : Shape := ⟨2, ![8500000, 1]⟩
abbrev S500000x4 : Shape := ⟨2, ![500000, 4]⟩
abbrev S8500000x4 : Shape := ⟨2, ![8500000, 4]⟩
abbrev S1x4 : Shape := ⟨2, ![1, 4]⟩
abbrev S500000x2 : Shape := ⟨2, ![500000, 2]⟩
abbrev S8500000x2 : Shape := ⟨2, ![8500000, 2]⟩
abbrev S1x2 : Shape := ⟨2, ![1, 2]⟩

abbrev nBuf : Space → Nat
  | .hbm => 121
  | .vmem => 0
  | .smem => 0
  | _ => 0

abbrev bufTy : (tb : Table) → Fin (tcTables nBuf tb) → BufTy
  | .hbm, ⟨0, _⟩ => ⟨S500000x34, .f32⟩
  | .hbm, ⟨1, _⟩ => ⟨S2x8000000, .i32⟩
  | .hbm, ⟨2, _⟩ => ⟨S34x4, .f32⟩
  | .hbm, ⟨3, _⟩ => ⟨S4, .f32⟩
  | .hbm, ⟨4, _⟩ => ⟨S4x4, .f32⟩
  | .hbm, ⟨5, _⟩ => ⟨S4, .f32⟩
  | .hbm, ⟨6, _⟩ => ⟨S4x2, .f32⟩
  | .hbm, ⟨7, _⟩ => ⟨S2, .f32⟩
  | .hbm, ⟨8, _⟩ => ⟨S2x4, .f32⟩
  | .hbm, ⟨9, _⟩ => ⟨S4, .f32⟩
  | .hbm, ⟨10, _⟩ => ⟨S500000, .i32⟩
  | .hbm, ⟨11, _⟩ => ⟨S1x8000000, .i32⟩
  | .hbm, ⟨12, _⟩ => ⟨S8000000, .i32⟩
  | .hbm, ⟨13, _⟩ => ⟨S8500000, .i32⟩
  | .hbm, ⟨14, _⟩ => ⟨S1x8000000, .i32⟩
  | .hbm, ⟨15, _⟩ => ⟨S8000000, .i32⟩
  | .hbm, ⟨16, _⟩ => ⟨S8500000, .i32⟩
  | .hbm, ⟨17, _⟩ => ⟨S_, .f32⟩
  | .hbm, ⟨18, _⟩ => ⟨S8500000, .f32⟩
  | .hbm, ⟨19, _⟩ => ⟨S_, .f32⟩
  | .hbm, ⟨20, _⟩ => ⟨S500000, .f32⟩
  | .hbm, ⟨21, _⟩ => ⟨S8500000x1, .i32⟩
  | .hbm, ⟨22, _⟩ => ⟨S500000, .f32⟩
  | .hbm, ⟨23, _⟩ => ⟨S_, .f32⟩
  | .hbm, ⟨24, _⟩ => ⟨S500000, .f32⟩
  | .hbm, ⟨25, _⟩ => ⟨S500000, .i1⟩
  | .hbm, ⟨26, _⟩ => ⟨S500000, .f32⟩
  | .hbm, ⟨27, _⟩ => ⟨S_, .f32⟩
  | .hbm, ⟨28, _⟩ => ⟨S_, .f32⟩
  | .hbm, ⟨29, _⟩ => ⟨S500000, .f32⟩
  | .hbm, ⟨30, _⟩ => ⟨S500000, .f32⟩
  | .hbm, ⟨31, _⟩ => ⟨S_, .i32⟩
  | .hbm, ⟨32, _⟩ => ⟨S8500000, .i32⟩
  | .hbm, ⟨33, _⟩ => ⟨S8500000, .i1⟩
  | .hbm, ⟨34, _⟩ => ⟨S_, .i32⟩
  | .hbm, ⟨35, _⟩ => ⟨S8500000, .i32⟩
  | .hbm, ⟨36, _⟩ => ⟨S8500000, .i32⟩
  | .hbm, ⟨37, _⟩ => ⟨S8500000, .i32⟩
  | .hbm, ⟨38, _⟩ => ⟨S8500000x1, .i32⟩
  | .hbm, ⟨39, _⟩ => ⟨S8500000, .f32⟩
  | .hbm, ⟨40, _⟩ => ⟨S_, .i32⟩
  | .hbm, ⟨41, _⟩ => ⟨S8500000, .i32⟩
  | .hbm, ⟨42, _⟩ => ⟨S8500000, .i1⟩
  | .hbm, ⟨43, _⟩ => ⟨S_, .i32⟩
  | .hbm, ⟨44, _⟩ => ⟨S8500000, .i32⟩
  | .hbm, ⟨45, _⟩ => ⟨S8500000, .i32⟩
  | .hbm, ⟨46, _⟩ => ⟨S8500000, .i32⟩
  | .hbm, ⟨47, _⟩ => ⟨S8500000x1, .i32⟩
  | .hbm, ⟨48, _⟩ => ⟨S8500000, .f32⟩
  | .hbm, ⟨49, _⟩ => ⟨S8500000, .f32⟩
  | .hbm, ⟨50, _⟩ => ⟨S8500000x1, .f32⟩
  | .hbm, ⟨51, _⟩ => ⟨S500000x4, .f32⟩
  | .hbm, ⟨52, _⟩ => ⟨S_, .i32⟩
  | .hbm, ⟨53, _⟩ => ⟨S8500000, .i32⟩
  | .hbm, ⟨54, _⟩ => ⟨S8500000, .i1⟩
  | .hbm, ⟨55, _⟩ => ⟨S_, .i32⟩
  | .hbm, ⟨56, _⟩ => ⟨S8500000, .i32⟩
  | .hbm, ⟨57, _⟩ => ⟨S8500000, .i32⟩
  | .hbm, ⟨58, _⟩ => ⟨S8500000, .i32⟩
  | .hbm, ⟨59, _⟩ => ⟨S8500000x1, .i32⟩
  | .hbm, ⟨60, _⟩ => ⟨S8500000x4, .f32⟩
  | .hbm, ⟨61, _⟩ => ⟨S8500000x4, .f32⟩
  | .hbm, ⟨62, _⟩ => ⟨S8500000x4, .f32⟩
  | .hbm, ⟨63, _⟩ => ⟨S_, .f32⟩
  | .hbm, ⟨64, _⟩ => ⟨S500000x4, .f32⟩
  | .hbm, ⟨65, _⟩ => ⟨S8500000x1, .i32⟩
  | .hbm, ⟨66, _⟩ => ⟨S500000x4, .f32⟩
  | .hbm, ⟨67, _⟩ => ⟨S1x4, .f32⟩
  | .hbm, ⟨68, _⟩ => ⟨S500000x4, .f32⟩
  | .hbm, ⟨69, _⟩ => ⟨S500000x4, .f32⟩
  | .hbm, ⟨70, _⟩ => ⟨S_, .f32⟩
  | .hbm, ⟨71, _⟩ => ⟨S500000x4, .f32⟩
  | .hbm, ⟨72, _⟩ => ⟨S500000x4, .f32⟩
  | .hbm, ⟨73, _⟩ => ⟨S500000x4, .f32⟩
  | .hbm, ⟨74, _⟩ => ⟨S_, .i32⟩
  | .hbm, ⟨75, _⟩ => ⟨S8500000, .i32⟩
  | .hbm, ⟨76, _⟩ => ⟨S8500000, .i1⟩
  | .hbm, ⟨77, _⟩ => ⟨S_, .i32⟩
  | .hbm, ⟨78, _⟩ => ⟨S8500000, .i32⟩
  | .hbm, ⟨79, _⟩ => ⟨S8500000, .i32⟩
  | .hbm, ⟨80, _⟩ => ⟨S8500000, .i32⟩
  | .hbm, ⟨81, _⟩ => ⟨S8500000x1, .i32⟩
  | .hbm, ⟨82, _⟩ => ⟨S8500000x4, .f32⟩
  | .hbm, ⟨83, _⟩ => ⟨S8500000x4, .f32⟩
  | .hbm, ⟨84, _⟩ => ⟨S8500000x4, .f32⟩
  | .hbm, ⟨85, _⟩ => ⟨S_, .f32⟩
  | .hbm, ⟨86, _⟩ => ⟨S500000x4, .f32⟩
  | .hbm, ⟨87, _⟩ => ⟨S8500000x1, .i32⟩
  | .hbm, ⟨88, _⟩ => ⟨S500000x4, .f32⟩
  | .hbm, ⟨89, _⟩ => ⟨S1x4, .f32⟩
  | .hbm, ⟨90, _⟩ => ⟨S500000x4, .f32⟩
  | .hbm, ⟨91, _⟩ => ⟨S500000x4, .f32⟩
  | .hbm, ⟨92, _⟩ => ⟨S_, .f32⟩
  | .hbm, ⟨93, _⟩ => ⟨S500000x4, .f32⟩
  | .hbm, ⟨94, _⟩ => ⟨S500000x4, .f32⟩
  | .hbm, ⟨95, _⟩ => ⟨S500000x2, .f32⟩
  | .hbm, ⟨96, _⟩ => ⟨S_, .i32⟩
  | .hbm, ⟨97, _⟩ => ⟨S8500000, .i32⟩
  | .hbm, ⟨98, _⟩ => ⟨S8500000, .i1⟩
  | .hbm, ⟨99, _⟩ => ⟨S_, .i32⟩
  | .hbm, ⟨100, _⟩ => ⟨S8500000, .i32⟩
  | .hbm, ⟨101, _⟩ => ⟨S8500000, .i32⟩
  | .hbm, ⟨102, _⟩ => ⟨S8500000, .i32⟩
  | .hbm, ⟨103, _⟩ => ⟨S8500000x1, .i32⟩
  | .hbm, ⟨104, _⟩ => ⟨S8500000x2, .f32⟩
  | .hbm, ⟨105, _⟩ => ⟨S8500000x2, .f32⟩
  | .hbm, ⟨106, _⟩ => ⟨S8500000x2, .f32⟩
  | .hbm, ⟨107, _⟩ => ⟨S_, .f32⟩
  | .hbm, ⟨108, _⟩ => ⟨S500000x2, .f32⟩
  | .hbm, ⟨109, _⟩ => ⟨S8500000x1, .i32⟩
  | .hbm, ⟨110, _⟩ => ⟨S500000x2, .f32⟩
  | .hbm, ⟨111, _⟩ => ⟨S1x2, .f32⟩
  | .hbm, ⟨112, _⟩ => ⟨S500000x2, .f32⟩
  | .hbm, ⟨113, _⟩ => ⟨S500000x2, .f32⟩
  | .hbm, ⟨114, _⟩ => ⟨S_, .f32⟩
  | .hbm, ⟨115, _⟩ => ⟨S500000x2, .f32⟩
  | .hbm, ⟨116, _⟩ => ⟨S500000x2, .f32⟩
  | .hbm, ⟨117, _⟩ => ⟨S500000x4, .f32⟩
  | .hbm, ⟨118, _⟩ => ⟨S1x4, .f32⟩
  | .hbm, ⟨119, _⟩ => ⟨S500000x4, .f32⟩
  | .hbm, ⟨120, _⟩ => ⟨S500000x4, .f32⟩
  | _, _ => ⟨S500000x34, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_call2_cst : Ref sig .tc := ⟨.hbm, 92, rfl⟩
abbrev main_call2_v0 : Ref sig .tc := ⟨.hbm, 93, rfl⟩
abbrev main_v64 : Ref sig .tc := ⟨.hbm, 94, rfl⟩
abbrev main_v65 : Ref sig .tc := ⟨.hbm, 95, rfl⟩
abbrev main_c_12 : Ref sig .tc := ⟨.hbm, 96, rfl⟩
abbrev main_v66 : Ref sig .tc := ⟨.hbm, 97, rfl⟩
abbrev main_v67 : Ref sig .tc := ⟨.hbm, 98, rfl⟩
abbrev main_c_13 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_14 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_call3_cst : Ref sig .tc := ⟨.hbm, 114, rfl⟩
abbrev main_call3_v0 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩

abbrev nD : Nat := 1
abbrev τ : Topo := Topo.v7x

variable {F : FTy → Type} [FloatOps F]

class Facts₀ : Prop where
  slices_S2x8000000_S1x8000000_0_0 : S2x8000000.Slices ![0, 0] S1x8000000
  shapeCasts_S1x8000000_S8000000 : S1x8000000.ShapeCasts S8000000
  concatenates_S8000000_S500000_S8500000_d0 : Shape.Concatenates [S8000000, S500000] S8500000 0
  slices_S2x8000000_S1x8000000_1_0 : S2x8000000.Slices ![1, 0] S1x8000000
  bcast_S_S8500000 : S_.BroadcastsInDim S8500000 (![] : Fin 0 → Fin S8500000.rank)
  bcast_S_S500000 : S_.BroadcastsInDim S500000 (![] : Fin 0 → Fin S500000.rank)
  bcast_S8500000_S8500000x1_0 : S8500000.BroadcastsInDim S8500000x1 (![0] : Fin 1 → Fin S8500000x1.rank)
  bcast_S8500000x1_S8500000x4_0_1 : S8500000x1.BroadcastsInDim S8500000x4 (![0, 1] : Fin 2 → Fin S8500000x4.rank)
  bcast_S_S500000x4 : S_.BroadcastsInDim S500000x4 (![] : Fin 0 → Fin S500000x4.rank)
  bcast_S4_S1x4_1 : S4.BroadcastsInDim S1x4 (![1] : Fin 1 → Fin S1x4.rank)
  bcast_S1x4_S500000x4_0_1 : S1x4.BroadcastsInDim S500000x4 (![0, 1] : Fin 2 → Fin S500000x4.rank)
  bcast_S8500000x1_S8500000x2_0_1 : S8500000x1.BroadcastsInDim S8500000x2 (![0, 1] : Fin 2 → Fin S8500000x2.rank)
  bcast_S_S500000x2 : S_.BroadcastsInDim S500000x2 (![] : Fin 0 → Fin S500000x2.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  scatter_S500000_S8500000x1_S8500000_n_0_0_1_wf : ScatterDims.WF S500000 S8500000x1 S8500000 [] [0] [0] 1
  gather_S500000_S8500000x1_S8500000_n_0_n_n_0_1_1_wf : GatherDims.WF S500000 S8500000x1 S8500000 [] [0] [] [0] [] 1 ![1]
  dot_S500000x34_S34x4_S500000x4_1_0_0_1_n_n_wf : DotDims.WF S500000x34 S34x4 S500000x4 [1] [0] [0] [1] [] []
  gather_S500000x4_S8500000x1_S8500000x4_1_0_n_n_0_1_14_wf : GatherDims.WF S500000x4 S8500000x1 S8500000x4 [1] [0] [] [0] [] 1 ![1, 4]
  scatter_S500000x4_S8500000x1_S8500000x4_1_0_0_1_wf : ScatterDims.WF S500000x4 S8500000x1 S8500000x4 [1] [0] [0] 1
  dot_S500000x4_S4x4_S500000x4_1_0_0_1_n_n_wf : DotDims.WF S500000x4 S4x4 S500000x4 [1] [0] [0] [1] [] []
  dot_S500000x4_S4x2_S500000x2_1_0_0_1_n_n_wf : DotDims.WF S500000x4 S4x2 S500000x2 [1] [0] [0] [1] [] []
  gather_S500000x2_S8500000x1_S8500000x2_1_0_n_n_0_1_12_wf : GatherDims.WF S500000x2 S8500000x1 S8500000x2 [1] [0] [] [0] [] 1 ![1, 2]
  scatter_S500000x2_S8500000x1_S8500000x2_1_0_0_1_wf : ScatterDims.WF S500000x2 S8500000x1 S8500000x2 [1] [0] [0] 1
  dot_S500000x2_S2x4_S500000x4_1_0_0_1_n_n_wf : DotDims.WF S500000x2 S2x4 S500000x4 [1] [0] [0] [1] [] []

variable [Facts₀]

def scatter_S500000_S8500000x1_S8500000_n_0_0_1 : ScatterDims S500000 S8500000x1 S8500000 where
  updateWindowDims := []
  insertedWindowDims := [0]
  scatterDimsToOperandDims := [0]
  indexVectorDim := 1
  wf := scatter_S500000_S8500000x1_S8500000_n_0_0_1_wf
def gather_S500000_S8500000x1_S8500000_n_0_n_n_0_1_1 : GatherDims S500000 S8500000x1 S8500000 where
  offsetDims := []
  collapsedSliceDims := [0]
  operandBatchingDims := []
  startIndicesBatchingDims := []
  startIndexMap := [0]
  indexVectorDim := 1
  sliceSizes := ![1]
  wf := gather_S500000_S8500000x1_S8500000_n_0_n_n_0_1_1_wf
def dot_S500000x34_S34x4_S500000x4_1_0_0_1_n_n : DotDims S500000x34 S34x4 S500000x4 where
  lhsContracting := [1]
  rhsContracting := [0]
  lhsNonContracting := [0]
  rhsNonContracting := [1]
  lhsBatch := []
  rhsBatch := []
  wf := dot_S500000x34_S34x4_S500000x4_1_0_0_1_n_n_wf
def gather_S500000x4_S8500000x1_S8500000x4_1_0_n_n_0_1_14 : GatherDims S500000x4 S8500000x1 S8500000x4 where
  offsetDims := [1]
  collapsedSliceDims := [0]
  operandBatchingDims := []
  startIndicesBatchingDims := []
  startIndexMap := [0]
  indexVectorDim := 1
  sliceSizes := ![1, 4]
  wf := gather_S500000x4_S8500000x1_S8500000x4_1_0_n_n_0_1_14_wf
def scatter_S500000x4_S8500000x1_S8500000x4_1_0_0_1 : ScatterDims S500000x4 S8500000x1 S8500000x4 where
  updateWindowDims := [1]
  insertedWindowDims := [0]
  scatterDimsToOperandDims := [0]
  indexVectorDim := 1
  wf := scatter_S500000x4_S8500000x1_S8500000x4_1_0_0_1_wf
def dot_S500000x4_S4x4_S500000x4_1_0_0_1_n_n : DotDims S500000x4 S4x4 S500000x4 where
  lhsContracting := [1]
  rhsContracting := [0]
  lhsNonContracting := [0]
  rhsNonContracting := [1]
  lhsBatch := []
  rhsBatch := []
  wf := dot_S500000x4_S4x4_S500000x4_1_0_0_1_n_n_wf
def dot_S500000x4_S4x2_S500000x2_1_0_0_1_n_n : DotDims S500000x4 S4x2 S500000x2 where
  lhsContracting := [1]
  rhsContracting := [0]
  lhsNonContracting := [0]
  rhsNonContracting := [1]
  lhsBatch := []
  rhsBatch := []
  wf := dot_S500000x4_S4x2_S500000x2_1_0_0_1_n_n_wf
def gather_S500000x2_S8500000x1_S8500000x2_1_0_n_n_0_1_12 : GatherDims S500000x2 S8500000x1 S8500000x2 where
  offsetDims := [1]
  collapsedSliceDims := [0]
  operandBatchingDims := []
  startIndicesBatchingDims := []
  startIndexMap := [0]
  indexVectorDim := 1
  sliceSizes := ![1, 2]
  wf := gather_S500000x2_S8500000x1_S8500000x2_1_0_n_n_0_1_12_wf
def scatter_S500000x2_S8500000x1_S8500000x2_1_0_0_1 : ScatterDims S500000x2 S8500000x1 S8500000x2 where
  updateWindowDims := [1]
  insertedWindowDims := [0]
  scatterDimsToOperandDims := [0]
  indexVectorDim := 1
  wf := scatter_S500000x2_S8500000x1_S8500000x2_1_0_0_1_wf
def dot_S500000x2_S2x4_S500000x4_1_0_0_1_n_n : DotDims S500000x2 S2x4 S500000x4 where
  lhsContracting := [1]
  rhsContracting := [0]
  lhsNonContracting := [0]
  rhsNonContracting := [1]
  lhsBatch := []
  rhsBatch := []
  wf := dot_S500000x2_S2x4_S500000x4_1_0_0_1_n_n_wf

class Facts : Prop extends Facts₀ where

variable [Facts]
-- ==== Proof.KernelRun.lean ====
/-
  The idealized kernel's run with its two results NAMED.

  @main is sixteen segments: stretches of host operations and seven regions. The generated frame certificate carries,
  through every segment, the thread state "every unscoped buffer of the core holds the contents at this boundary", and
  ends at the last boundary's contents `Gen.W16 m ρ c`. Its own conclusion keeps only the argument arrays. Here the same
  launch is read at the two result buffers as well: every weakly fair execution terminates, nothing faulting, with each
  result at `W16` of its buffer and the arguments as launched.
-/
import proofs.«121053_j15650860827522_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the two results at the last boundary's
    contents and the arguments as launched. -/
theorem values : θ_run defs (onTc (τ := τ) (main (F := F))) ⟨m, fun _ => 0, ρ⟩ (fun r => ∀ c : Dev nD,
      r.2.mem ((c.tc : Thread nD τ).loc main_v80) = W16 m ρ c (Proc.devRef .tc main_v80)
      ∧ r.2.mem ((c.tc : Thread nD τ).loc main_v78) = W16 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v80 (by decide)),
       h c _ (mem_uc main_v78 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c)⟩)

end Cert.KernelIdeal.Run

end
-- ==== Proof.Carry.lean ====
/-
  What the kernel's host stretches and regions leave alone.

  @main's buffer contents are followed boundary by boundary: `W0` at launch, then after each stretch of host operations and
  each region. An argument array is written by nothing; the three arrays the normalisation computes once — the source and
  destination node of every edge and self loop, and the edge weights — are written in the first stretches and by nothing
  after. So at every later boundary where a layer reads them they hold what they held before: each step below says that no
  operation of a stretch writes the buffer, or that the buffer is not one of a region's arrays.
-/
import proofs.«121053_j15650860827522_2_alg».proof.Proof.Gen.KernelIdeal.Frame

noncomputable section

namespace Cert.KernelIdeal.Carry

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- No operation of the named stretch writes the buffer, so the stretch leaves it as it was. -/
local macro "host_step" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The argument arrays. -/
abbrev args : List (Ref sig .tc) :=
  [main_arg0, main_arg1, main_arg2, main_arg3, main_arg4, main_arg5, main_arg6, main_arg7, main_arg8, main_arg9]
/-- What the first layer's aggregation and everything after it still reads: the later arguments, the edges' sources
    (`main_v3`) and destinations (`main_v6`), the edge weights (`main_v30`). -/
abbrev late1 : List (Ref sig .tc) :=
  [main_arg3, main_arg4, main_arg5, main_arg6, main_arg7, main_arg8, main_arg9, main_v3, main_v6, main_v30]
/-- The same from the second layer's product on. -/
abbrev late2 : List (Ref sig .tc) := [main_arg5, main_arg6, main_arg7, main_arg8, main_arg9, main_v3, main_v6, main_v30]
/-- The same from the third layer's product on. -/
abbrev late3 : List (Ref sig .tc) := [main_arg7, main_arg8, main_arg9, main_v3, main_v6, main_v30]

theorem late2_sub : ∀ b ∈ late2, b ∈ late1 := by
  intro b hb
  simp only [late2, List.mem_cons, List.mem_nil_iff, or_false] at hb
  rcases hb with rfl | rfl | rfl | rfl | rfl | rfl | rfl | rfl <;> simp [late1]
theorem late3_sub : ∀ b ∈ late3, b ∈ late2 := by
  intro b hb
  simp only [late3, List.mem_cons, List.mem_nil_iff, or_false] at hb
  rcases hb with rfl | rfl | rfl | rfl | rfl | rfl <;> simp [late2]

/-! ## One boundary to the next -/

theorem step0 : ∀ b ∈ args, W1 m ρ c (Proc.devRef .tc b) = W0 m ρ c (Proc.devRef .tc b) := by
  intro b hb
  simp only [args, List.mem_cons, List.mem_nil_iff, or_false] at hb
  rcases hb with rfl | rfl | rfl | rfl | rfl | rfl | rfl | rfl | rfl | rfl <;> host_step hostOps0
theorem step1 : ∀ b ∈ args, W2 m ρ c (Proc.devRef .tc b) = W1 m ρ c (Proc.devRef .tc b) := by
  intro b hb
  simp only [args, List.mem_cons, List.mem_nil_iff, or_false] at hb
  rcases hb with rfl | rfl | rfl | rfl | rfl | rfl | rfl | rfl | rfl | rfl <;> host_step hostOps0_1
theorem step2 : ∀ b ∈ args, W3 m ρ c (Proc.devRef .tc b) = W2 m ρ c (Proc.devRef .tc b) := by
  intro b hb
  simp only [args, List.mem_cons, List.mem_nil_iff, or_false] at hb
  rcases hb with rfl | rfl | rfl | rfl | rfl | rfl | rfl | rfl | rfl | rfl <;> host_step hostOps0_2
theorem step3 : ∀ b ∈ late1, W4 m ρ c (Proc.devRef .tc b) = W3 m ρ c (Proc.devRef .tc b) := by
  intro b hb
  simp only [late1, List.mem_cons, List.mem_nil_iff, or_false] at hb
  rcases hb with rfl | rfl | rfl | rfl | rfl | rfl | rfl | rfl | rfl | rfl <;> exact W4_of_ne m ρ c _ (by decide)
theorem step4 : ∀ b ∈ late1, W5 m ρ c (Proc.devRef .tc b) = W4 m ρ c (Proc.devRef .tc b) := by
  intro b hb
  simp only [late1, List.mem_cons, List.mem_nil_iff, or_false] at hb
  rcases hb with rfl | rfl | rfl | rfl | rfl | rfl | rfl | rfl | rfl | rfl <;> host_step hostOps1
theorem step5 : ∀ b ∈ late1, W6 m ρ c (Proc.devRef .tc b) = W5 m ρ c (Proc.devRef .tc b) := by
  intro b hb
  simp only [late1, List.mem_cons, List.mem_nil_iff, or_false] at hb
  rcases hb with rfl | rfl | rfl | rfl | rfl | rfl | rfl | rfl | rfl | rfl <;> exact W6_of_ne m ρ c _ (by decide)
theorem step6 : ∀ b ∈ late1, W7 m ρ c (Proc.devRef .tc b) = W6 m ρ c (Proc.devRef .tc b) := by
  intro b hb
  simp only [late1, List.mem_cons, List.mem_nil_iff, or_false] at hb
  rcases hb with rfl | rfl | rfl | rfl | rfl | rfl | rfl | rfl | rfl | rfl <;> host_step hostOps2
theorem step7 : ∀ b ∈ late2, W8 m ρ c (Proc.devRef .tc b) = W7 m ρ c (Proc.devRef .tc b) := by
  intro b hb
  simp only [late2, List.mem_cons, List.mem_nil_iff, or_false] at hb
  rcases hb with rfl | rfl | rfl | rfl | rfl | rfl | rfl | rfl <;> exact W8_of_ne m ρ c _ (by decide)
theorem step8 : ∀ b ∈ late2, W9 m ρ c (Proc.devRef .tc b) = W8 m ρ c (Proc.devRef .tc b) := by
  intro b hb
  simp only [late2, List.mem_cons, List.mem_nil_iff, or_false] at hb
  rcases hb with rfl | rfl | rfl | rfl | rfl | rfl | rfl | rfl <;> host_step hostOps3
theorem step9 : ∀ b ∈ late2, W10 m ρ c (Proc.devRef .tc b) = W9 m ρ c (Proc.devRef .tc b) := by
  intro b hb
  simp only [late2, List.mem_cons, List.mem_nil_iff, or_false] at hb
  rcases hb with rfl | rfl | rfl | rfl | rfl | rfl | rfl | rfl <;> exact W10_of_ne m ρ c _ (by decide)
theorem step10 : ∀ b ∈ late2, W11 m ρ c (Proc.devRef .tc b) = W10 m ρ c (Proc.devRef .tc b) := by
  intro b hb
  simp only [late2, List.mem_cons, List.mem_nil_iff, or_false] at hb
  rcases hb with rfl | rfl | rfl | rfl | rfl | rfl | rfl | rfl <;> host_step hostOps4
theorem step11 : ∀ b ∈ late3, W12 m ρ c (Proc.devRef .tc b) = W11 m ρ c (Proc.devRef .tc b) := by
  intro b hb
  simp only [late3, List.mem_cons, List.mem_nil_iff, or_false] at hb
  rcases hb with rfl | rfl | rfl | rfl | rfl | rfl <;> exact W12_of_ne m ρ c _ (by decide)
theorem step12 : ∀ b ∈ late3, W13 m ρ c (Proc.devRef .tc b) = W12 m ρ c (Proc.devRef .tc b) := by
  intro b hb
  simp only [late3, List.mem_cons, List.mem_nil_iff, or_false] at hb
  rcases hb with rfl | rfl | rfl | rfl | rfl | rfl <;> host_step hostOps5
theorem step13 : ∀ b ∈ late3, W14 m ρ c (Proc.devRef .tc b) = W13 m ρ c (Proc.devRef .tc b) := by
  intro b hb
  simp only [late3, List.mem_cons, List.mem_nil_iff, or_false] at hb
  rcases hb with rfl | rfl | rfl | rfl | rfl | rfl <;> exact W14_of_ne m ρ c _ (by decide)
theorem step14 : ∀ b ∈ late3, W15 m ρ c (Proc.devRef .tc b) = W14 m ρ c (Proc.devRef .tc b) := by
  intro b hb
  simp only [late3, List.mem_cons, List.mem_nil_iff, or_false] at hb
  rcases hb with rfl | rfl | rfl | rfl | rfl | rfl <;> host_step hostOps6

/-- A layer's activations cross the stretch that only makes the next product's zero bias row. -/
theorem v46_W7 : W7 m ρ c (Proc.devRef .tc main_v46) = W6 m ρ c (Proc.devRef .tc main_v46) := by host_step hostOps2
theorem v62_W11 : W11 m ρ c (Proc.devRef .tc main_v62) = W10 m ρ c (Proc.devRef .tc main_v62) := by host_step hostOps4
/-- The last layer's activations cross the stretch that only lays the head's bias out as a row. -/
theorem v78_W15 : W15 m ρ c (Proc.devRef .tc main_v78) = W14 m ρ c (Proc.devRef .tc main_v78) := by host_step hostOps6

/-! ## From a boundary back to the launch, or to the end of the normalisation (`W3`) -/

/-- At the end of the normalisation every argument array is as launched. -/
theorem at3 : ∀ b ∈ args, W3 m ρ c (Proc.devRef .tc b) = m ((c.tc : Thread nD τ).loc b) :=
  fun b hb => (step2 m ρ c b hb).trans ((step1 m ρ c b hb).trans ((step0 m ρ c b hb).trans rfl))

theorem to4 : ∀ b ∈ late1, W4 m ρ c (Proc.devRef .tc b) = W3 m ρ c (Proc.devRef .tc b) := step3 m ρ c
theorem to5 : ∀ b ∈ late1, W5 m ρ c (Proc.devRef .tc b) = W3 m ρ c (Proc.devRef .tc b) :=
  fun b hb => (step4 m ρ c b hb).trans (to4 m ρ c b hb)
theorem to6 : ∀ b ∈ late1, W6 m ρ c (Proc.devRef .tc b) = W3 m ρ c (Proc.devRef .tc b) :=
  fun b hb => (step5 m ρ c b hb).trans (to5 m ρ c b hb)
theorem to7 : ∀ b ∈ late1, W7 m ρ c (Proc.devRef .tc b) = W3 m ρ c (Proc.devRef .tc b) :=
  fun b hb => (step6 m ρ c b hb).trans (to6 m ρ c b hb)
theorem to8 : ∀ b ∈ late2, W8 m ρ c (Proc.devRef .tc b) = W3 m ρ c (Proc.devRef .tc b) :=
  fun b hb => (step7 m ρ c b hb).trans (to7 m ρ c b (late2_sub b hb))
theorem to9 : ∀ b ∈ late2, W9 m ρ c (Proc.devRef .tc b) = W3 m ρ c (Proc.devRef .tc b) :=
  fun b hb => (step8 m ρ c b hb).trans (to8 m ρ c b hb)
theorem to10 : ∀ b ∈ late2, W10 m ρ c (Proc.devRef .tc b) = W3 m ρ c (Proc.devRef .tc b) :=
  fun b hb => (step9 m ρ c b hb).trans (to9 m ρ c b hb)
theorem to11 : ∀ b ∈ late2, W11 m ρ c (Proc.devRef .tc b) = W3 m ρ c (Proc.devRef .tc b) :=
  fun b hb => (step10 m ρ c b hb).trans (to10 m ρ c b hb)
theorem to12 : ∀ b ∈ late3, W12 m ρ c (Proc.devRef .tc b) = W3 m ρ c (Proc.devRef .tc b) :=
  fun b hb => (step11 m ρ c b hb).trans (to11 m ρ c b (late3_sub b hb))
theorem to13 : ∀ b ∈ late3, W13 m ρ c (Proc.devRef .tc b) = W3 m ρ c (Proc.devRef .tc b) :=
  fun b hb => (step12 m ρ c b hb).trans (to12 m ρ c b hb)
theorem to14 : ∀ b ∈ late3, W14 m ρ c (Proc.devRef .tc b) = W3 m ρ c (Proc.devRef .tc b) :=
  fun b hb => (step13 m ρ c b hb).trans (to13 m ρ c b hb)
theorem to15 : ∀ b ∈ late3, W15 m ρ c (Proc.devRef .tc b) = W3 m ρ c (Proc.devRef .tc b) :=
  fun b hb => (step14 m ρ c b hb).trans (to14 m ρ c b hb)

end Cert.KernelIdeal.Carry

end
-- ==== Proof.LibBiasRow.lean ====
/-
  A vector laid out as one row, two ways.

  The kernel's host code reshapes a bias vector `[N]` to the row `[1, N]`; the reference puts the vector on axis 1 of
  `[1, N]`. Both rows hold the vector's entry `j` at `(0, j)`, so they are one array (`row_of_vec`).
-/
import Idealize.ShloMosaic.Lib.ValueLayout
import Idealize.ShloMosaic.Lib.Pipeline.Value

noncomputable section

namespace Cert.Lib.BiasRow

open Idealize.ShloMosaic Idealize.ShloMosaic.ValueIdx

/-- A vector reshaped to a row is the vector put on the row's second axis. -/
theorem row_of_vec {α : Type} {N : ℕ} (b : (⟨1, ![N]⟩ : Shape).Idx → α)
    (h1 : (⟨1, ![N]⟩ : Shape).ShapeCasts ⟨2, ![1, N]⟩) (h2 : (⟨1, ![N]⟩ : Shape).BroadcastsInDim ⟨2, ![1, N]⟩ ![1]) :
    shapeCast ⟨2, ![1, N]⟩ b h1 = broadcastInDim ⟨2, ![1, N]⟩ ![1] h2 b := by
  funext i
  obtain ⟨z, j, rfl⟩ : ∃ (z : Fin 1) (j : Fin N), i = ix2 z j := ⟨i 0, i 1, eq_ix2 i⟩
  have hz : z = 0 := Fin.ext (by have := z.isLt; omega)
  subst hz
  rw [shapeCast_a_1a_apply b h1 0 j]
  refine (broadcastInDim_apply _ h2 b (ix2 (0 : Fin 1) j) (ix1 j) fun a => ?_).symm
  match a with
  | ⟨0, _⟩ =>
    show j.val = if N = 1 then 0 else j.val
    split
    · have := j.isLt; omega
    · rfl

end Cert.Lib.BiasRow

end
-- ==== Proof.HostFacts.lean ====
/-
  The kernel's stretches of host operations, read as the reference's stages.

  Between its regions the kernel's @main runs the same host operations as the reference: the normalisation at the start
  (edge list with self loops, degrees by a scatter-add of ones, `d^(-1/2)` where the degree is positive, the edge weights), and
  per layer a gather along the edges' sources, a product with the edge weights and a scatter-add along the destinations.
  Each lemma reads one buffer a stretch writes, from ANY contents `V` the stretch starts at, as the reference's stage of
  the same inputs; where the stretch reads a buffer written earlier, what that buffer holds is a hypothesis. The two
  programs' operations are the same text, so each proof is the fold through the stretch followed by reflexivity. They are
  stated for any float instance: nothing here depends on what a float is.
-/
import proofs.«121053_j15650860827522_2_alg».proof.Proof.Gen.KernelIdeal.Launch
import proofs.«121053_j15650860827522_2_alg».proof.Proof.RefReadPatched
import proofs.«121053_j15650860827522_2_alg».proof.Proof.LibBiasRow

set_option maxRecDepth 16384

noncomputable section

namespace Cert.KernelIdeal.HostFacts

open Cert.KernelIdeal Cert.KernelIdeal.Gen Idealize.ShloMosaic Idealize.ShloMosaic.TcCoe Idealize.SL.Sem
open Cert.ReferenceIdeal.ReadP

variable {F : FTy → Type} [FloatOps F]

/-! ## The normalisation -/

set_option maxHeartbeats 1000000 in
/-- The edges' source nodes, self loops appended. -/
theorem src_of (V : Valuation τ sig (Elt F)) :
    StableHlo.after hostOps0_2 (StableHlo.after hostOps0_1 (StableHlo.after hostOps0 V)) (Proc.devRef .tc main_v3)
      = val_main_v3 (F := F) (V (Proc.devRef .tc main_arg1)) := by
  after_results_simp <;> rfl

set_option maxHeartbeats 1000000 in
/-- The edges' destination nodes, self loops appended. -/
theorem dst_of (V : Valuation τ sig (Elt F)) :
    StableHlo.after hostOps0_2 (StableHlo.after hostOps0_1 (StableHlo.after hostOps0 V)) (Proc.devRef .tc main_v6)
      = val_main_v6 (F := F) (V (Proc.devRef .tc main_arg1)) := by
  after_results_simp <;> rfl

set_option maxHeartbeats 1000000 in
/-- The edge weights `d(src)^(-1/2) · d(dst)^(-1/2)`, as a column. -/
theorem nrm_of (V : Valuation τ sig (Elt F)) :
    StableHlo.after hostOps0_2 (StableHlo.after hostOps0_1 (StableHlo.after hostOps0 V)) (Proc.devRef .tc main_v30)
      = val_main_v30 (F := F) (V (Proc.devRef .tc main_arg1)) := by
  after_results_simp <;> rfl

/-! ## The zero bias rows of the three products -/

/-- The first product's bias row: a broadcast zero. -/
theorem zero1_of (V : Valuation τ sig (Elt F)) :
    StableHlo.after hostOps0_2 V (Proc.devRef .tc main_v31)
      = broadcastInDim S1x4 ![] Facts₀.bcast_S_S1x4 (constant (F := F) S_ .f32 0x00000000#32) := by
  after_results_simp <;> rfl

/-- The second product's bias row: a broadcast zero. -/
theorem zero2_of (V : Valuation τ sig (Elt F)) :
    StableHlo.after hostOps2 V (Proc.devRef .tc main_v47)
      = broadcastInDim S1x4 ![] Facts₀.bcast_S_S1x4 (constant (F := F) S_ .f32 0x00000000#32) := by
  after_results_simp <;> rfl

/-- The third product's bias row: a broadcast zero. -/
theorem zero3_of (V : Valuation τ sig (Elt F)) :
    StableHlo.after hostOps4 V (Proc.devRef .tc main_v63)
      = broadcastInDim S1x2 ![] Facts₀.bcast_S_S1x2 (constant (F := F) S_ .f32 0x00000000#32) := by
  after_results_simp <;> rfl

/-! ## The aggregation over the edges, per layer, and each bias laid out as a row -/

set_option maxHeartbeats 1000000 in
/-- The first layer's aggregate, given the product and the normalisation's three arrays. -/
theorem agg1_of (V : Valuation τ sig (Elt F)) (x0 : (⟨Cert.ReferenceIdeal.S500000x34, .f32⟩ : BufTy).Contents (Elt F)) (x1 : (⟨Cert.ReferenceIdeal.S2x8000000, .i32⟩ : BufTy).Contents (Elt F)) (x2 : (⟨Cert.ReferenceIdeal.S34x4, .f32⟩ : BufTy).Contents (Elt F))
    (hl : V (Proc.devRef .tc main_v32) = val_main_v31 (F := F) x0 x2)
    (hs : V (Proc.devRef .tc main_v3) = val_main_v3 (F := F) x1)
    (hd : V (Proc.devRef .tc main_v6) = val_main_v6 (F := F) x1)
    (hn : V (Proc.devRef .tc main_v30) = val_main_v30 (F := F) x1) :
    StableHlo.after hostOps1 V (Proc.devRef .tc main_v44) = val_main_v43 (F := F) x0 x1 x2 := by
  after_results_simp
  rw [hl, hs, hd, hn]
  rfl

/-- The first bias as a row. -/
theorem row1_of (V : Valuation τ sig (Elt F)) (x3 : (⟨Cert.ReferenceIdeal.S4, .f32⟩ : BufTy).Contents (Elt F))
    (hb : V (Proc.devRef .tc main_arg3) = x3) :
    StableHlo.after hostOps1 V (Proc.devRef .tc main_v45) = val_main_v44 (F := F) x3 := by
  after_results_simp
  rw [hb]
  exact Cert.Lib.BiasRow.row_of_vec _ _ _

set_option maxHeartbeats 1000000 in
/-- The second layer's aggregate. -/
theorem agg2_of (V : Valuation τ sig (Elt F)) (x0 : (⟨Cert.ReferenceIdeal.S500000x34, .f32⟩ : BufTy).Contents (Elt F)) (x1 : (⟨Cert.ReferenceIdeal.S2x8000000, .i32⟩ : BufTy).Contents (Elt F)) (x2 : (⟨Cert.ReferenceIdeal.S34x4, .f32⟩ : BufTy).Contents (Elt F)) (x3 : (⟨Cert.ReferenceIdeal.S4, .f32⟩ : BufTy).Contents (Elt F)) (x4 : (⟨Cert.ReferenceIdeal.S4x4, .f32⟩ : BufTy).Contents (Elt F))
    (hl : V (Proc.devRef .tc main_v48) = val_main_v48 (F := F) x0 x1 x2 x3 x4)
    (hs : V (Proc.devRef .tc main_v3) = val_main_v3 (F := F) x1)
    (hd : V (Proc.devRef .tc main_v6) = val_main_v6 (F := F) x1)
    (hn : V (Proc.devRef .tc main_v30) = val_main_v30 (F := F) x1) :
    StableHlo.after hostOps3 V (Proc.devRef .tc main_v60) = val_main_v60 (F := F) x0 x1 x2 x3 x4 := by
  after_results_simp
  rw [hl, hs, hd, hn]
  rfl

/-- The second bias as a row. -/
theorem row2_of (V : Valuation τ sig (Elt F)) (x5 : (⟨Cert.ReferenceIdeal.S4, .f32⟩ : BufTy).Contents (Elt F))
    (hb : V (Proc.devRef .tc main_arg5) = x5) :
    StableHlo.after hostOps3 V (Proc.devRef .tc main_v61) = val_main_v61 (F := F) x5 := by
  after_results_simp
  rw [hb]
  exact Cert.Lib.BiasRow.row_of_vec _ _ _

set_option maxHeartbeats 1000000 in
/-- The third layer's aggregate. -/
theorem agg3_of (V : Valuation τ sig (Elt F)) (x0 : (⟨Cert.ReferenceIdeal.S500000x34, .f32⟩ : BufTy).Contents (Elt F)) (x1 : (⟨Cert.ReferenceIdeal.S2x8000000, .i32⟩ : BufTy).Contents (Elt F)) (x2 : (⟨Cert.ReferenceIdeal.S34x4, .f32⟩ : BufTy).Contents (Elt F)) (x3 : (⟨Cert.ReferenceIdeal.S4, .f32⟩ : BufTy).Contents (Elt F)) (x4 : (⟨Cert.ReferenceIdeal.S4x4, .f32⟩ : BufTy).Contents (Elt F)) (x5 : (⟨Cert.ReferenceIdeal.S4, .f32⟩ : BufTy).Contents (Elt F)) (x6 : (⟨Cert.ReferenceIdeal.S4x2, .f32⟩ : BufTy).Contents (Elt F))
    (hl : V (Proc.devRef .tc main_v64) = val_main_v65 (F := F) x0 x1 x2 x3 x4 x5 x6)
    (hs : V (Proc.devRef .tc main_v3) = val_main_v3 (F := F) x1)
    (hd : V (Proc.devRef .tc main_v6) = val_main_v6 (F := F) x1)
    (hn : V (Proc.devRef .tc main_v30) = val_main_v30 (F := F) x1) :
    StableHlo.after hostOps5 V (Proc.devRef .tc main_v76) = val_main_v77 (F := F) x0 x1 x2 x3 x4 x5 x6 := by
  after_results_simp
  rw [hl, hs, hd, hn]
  rfl

/-- The third bias as a row. -/
theorem row3_of (V : Valuation τ sig (Elt F)) (x7 : (⟨Cert.ReferenceIdeal.S2, .f32⟩ : BufTy).Contents (Elt F))
    (hb : V (Proc.devRef .tc main_arg7) = x7) :
    StableHlo.after hostOps5 V (Proc.devRef .tc main_v77) = val_main_v78 (F := F) x7 := by
  after_results_simp
  rw [hb]
  exact Cert.Lib.BiasRow.row_of_vec _ _ _

/-- The head's bias as a row. -/
theorem row4_of (V : Valuation τ sig (Elt F)) (x9 : (⟨Cert.ReferenceIdeal.S4, .f32⟩ : BufTy).Contents (Elt F))
    (hb : V (Proc.devRef .tc main_arg9) = x9) :
    StableHlo.after hostOps6 V (Proc.devRef .tc main_v79) = val_main_v83 (F := F) x9 := by
  after_results_simp
  rw [hb]
  exact Cert.Lib.BiasRow.row_of_vec _ _ _

end Cert.KernelIdeal.HostFacts

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«121053_j15650860827522_2_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.LibAffineRows.lean ====
/-
  A dense layer applied to a block of rows, against the same layer applied to the whole array, on the extended reals.

  Let `A` be an `M×K` array, `W` a `K×N` weight and `b` a bias vector of length `N`. A kernel that tiles the rows of
  `A` computes, on a `B×K` block `x` whose row `p` is row `P` of `A`, the product `x · W` on the vector unit from the zero
  accumulator and adds the bias laid out as one row `[1, N]` and broadcast over the block's rows; the host computes the
  one product `A · W` and adds the bias broadcast over all rows. Entry `(p, q)` of the first is entry `(P, q)` of the
  second: both are `∑ k, A (P, k) * W (k, q) + b q`, the same sum term by term, so no finiteness is asked of any entry
  and the operands' float formats do not matter. Also here: the two spellings of "a vector as a row, repeated down the
  rows" read at an entry (a shape cast to `[1, N]` then a row broadcast; two `broadcast_in_dim`), and the rectifier
  `max (·, 0)` with its zero spelt as a splat scalar on one side and a broadcast rank-0 constant on the other.
-/
import proofs.«121053_j15650860827522_2_alg».proof.Proof.LibRowBlock
import Idealize.ShloMosaic.Lib.ValueLayout
import Idealize.ShloMosaic.Lib.Pipeline.Value

noncomputable section

namespace Cert.Lib.AffineRows

open Idealize.ShloMosaic Idealize.ShloMosaic.ValueIdx

variable {α : Type}

/-- A vector `[N]` cast to one row `[1, N]` and broadcast over `B` rows reads, at `(p, j)`, the vector at `j`. -/
theorem castRow_apply {B N : ℕ} (b : (⟨1, ![N]⟩ : Shape).Idx → α) (h1 : (⟨1, ![N]⟩ : Shape).ShapeCasts ⟨2, ![1, N]⟩)
    (h2 : (⟨2, ![1, N]⟩ : Shape).Broadcasts ⟨2, ![B, N]⟩) (p : Fin B) (j : Fin N) :
    broadcastTo ⟨2, ![B, N]⟩ (shapeCast ⟨2, ![1, N]⟩ b h1) h2 (ix2 p j) = b (ix1 j) :=
  (broadcastTo_1b_ab_apply _ h2 p j).trans (shapeCast_a_1a_apply b h1 0 j)

/-- A vector `[N]` put on axis 1 of `[1, N]` and that row put on both axes of `[M, N]` reads, at `(P, j)`, the vector at `j`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (P : Fin M) (j : Fin N) :
    broadcastInDim ⟨2, ![M, N]⟩ ![0, 1] h2 (broadcastInDim ⟨2, ![1, N]⟩ ![1] h1 b) (ix2 P j) = b (ix1 j) := by
  have hj : j.val = if N = 1 then 0 else j.val := by
    split
    · have := j.isLt; omega
    · rfl
  refine (broadcastInDim_apply _ h2 _ (ix2 P j) (ix2 (0 : Fin 1) j) fun a => ?_).trans
    (broadcastInDim_apply _ h1 b (ix2 (0 : Fin 1) j) (ix1 j) fun a => ?_)
  · match a with
    | ⟨0, _⟩ => rfl
    | ⟨1, _⟩ => exact hj
  · match a with
    | ⟨0, _⟩ => exact hj

/-- One dense layer on a block of rows is, row for row, the layer on the whole array. -/
theorem layer_row {M K N B : ℕ} {φ₁ φ₂ ψ₁ ψ₂ : FTy} (prec prec' : Option ContractPrecision)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (bk : FVec Ideal ⟨2, ![B, N]⟩ .f32) (bR : FVec Ideal ⟨2, ![M, N]⟩ .f32) (P : Fin M) (p : Fin B) (q : Fin N)
    (hx : ∀ k : Fin K, (x (ix2 p k) : EReal) = A (ix2 P k)) (hw : ∀ k : Fin K, (w (ix2 k q) : EReal) = W (ix2 k q))
    (hb : (bk (ix2 p q) : EReal) = bR (ix2 P q)) :
    addf (matmul (DotDims.plain B K N) prec x w (constant ⟨2, ![B, N]⟩ .f32 0x00000000#32)) bk (ix2 p q)
      = addf (Host.dotGeneral (DotDims.plain M K N) prec' A W) bR (ix2 P q) := by
  show FloatOps.addf _ _ = FloatOps.addf _ _
  rw [hb]
  exact congrArg (FloatOps.addf · _) (Cert.Lib.RowBlock.matmul_eq_dotGeneral prec prec' .single A W x w P p q hx hw)

/-- The rectifier at an entry: the zero a splat scalar on one side, a broadcast rank-0 constant on the other. -/
theorem relu_row {s t : Shape} (u : FVec Ideal s .f32) (v : FVec Ideal t .f32) (i : s.Idx) (j : t.Idx)
    (hbc : (⟨0, ![]⟩ : Shape).BroadcastsInDim t ![]) (huv : (u i : EReal) = v j) :
    maximumf u (broadcast s (Scalar.ofBits .f32 0x00000000#32)) i
      = maximumf v (broadcastInDim t ![] hbc (constant ⟨0, ![]⟩ .f32 0x00000000#32)) j := by
  show FloatOps.maximumf (u i) _ = FloatOps.maximumf (v j) _
  rw [huv]
  rfl

end Cert.Lib.AffineRows

end
-- ==== Proof.LibRowLayers.lean ====
/-
  The two kernel bodies of a row-tiled graph-convolution layer at ONE entry, against the host's operations on the whole
  array, on the extended reals.

  A dense body multiplies its `B×K` block of rows by the whole `K×N` weight on the vector unit, from the zero accumulator
  and with both operands passed through a change of float format (the identity on the extended reals), and adds a bias
  row `[1, N]` broadcast over the block's rows. At entry `(p, q)`, with row `p` of the block being row `P` of the array,
  that is `∑ k, A (P, k) * W (k, q) + r (0, q)`: entry `(P, q)` of the host's product plus the same row put on both axes of
  `[M, N]` (`dense_bias_point`), and, when the row is zero, entry `(P, q)` of the product alone, because `y + 0 = y` for every
  extended real `y`, the infinities included (`dense_zero_point`). A bias-and-rectifier body computes `max (g + r, 0)` on
  its block, entry for entry what the host computes on the whole array (`bias_relu_point`). No finiteness is asked anywhere:
  the two sides are the same sums and the same maxima, term by term.
-/
import proofs.«121053_j15650860827522_2_alg».proof.Proof.LibAffineRows

noncomputable section

open scoped BigOperators

namespace Cert.Lib.RowLayers

open Idealize.ShloMosaic Idealize.ShloMosaic.ValueIdx

variable {M K N B : ℕ}

/-- One row `[1, N]`, cast to its own shape and broadcast over `B` rows, reads at `(p, q)` its entry `(0, q)`. -/
theorem rowOver_apply {α : Type} (r : (⟨2, ![1, N]⟩ : Shape).Idx → α) (h1 : (⟨2, ![1, N]⟩ : Shape).ShapeCasts ⟨2, ![1, N]⟩)
    (h2 : (⟨2, ![1, N]⟩ : Shape).Broadcasts ⟨2, ![B, N]⟩) (p : Fin B) (q : Fin N) :
    broadcastTo ⟨2, ![B, N]⟩ (shapeCast ⟨2, ![1, N]⟩ r h1) h2 (ix2 p q) = r (ix2 (0 : Fin 1) q) := by
  rw [shapeCast_self]
  exact broadcastTo_1b_ab_apply r h2 p q

/-- One row `[1, N]` put on both axes of `[M, N]` reads at `(P, q)` its entry `(0, q)`. -/
theorem rowInDim_apply {α : Type} (r : (⟨2, ![1, N]⟩ : Shape).Idx → α)
    (h : (⟨2, ![1, N]⟩ : Shape).BroadcastsInDim ⟨2, ![M, N]⟩ ![0, 1]) (P : Fin M) (q : Fin N) :
    broadcastInDim ⟨2, ![M, N]⟩ ![0, 1] h r (ix2 P q) = r (ix2 (0 : Fin 1) q) := by
  refine broadcastInDim_apply _ h r (ix2 P q) (ix2 (0 : Fin 1) q) fun a => ?_
  match a with
  | ⟨0, _⟩ => rfl
  | ⟨1, _⟩ =>
    show q.val = if N = 1 then 0 else q.val
    split
    · have := q.isLt; omega
    · rfl

/-- A dense body with a bias row, at one entry: the host's product plus the row put on both axes. -/
theorem dense_bias_point (prec prec' : Option ContractPrecision)
    (A : FVec Ideal ⟨2, ![M, K]⟩ .f32) (W : FVec Ideal ⟨2, ![K, N]⟩ .f32) (R : FVec Ideal ⟨2, ![1, N]⟩ .f32)
    (x : FVec Ideal ⟨2, ![B, K]⟩ .f32) (w : FVec Ideal ⟨2, ![K, N]⟩ .f32) (r : FVec Ideal ⟨2, ![1, N]⟩ .f32)
    (hlt : FTy.bf16.bits < FTy.f32.bits)
    (h1 : (⟨2, ![1, N]⟩ : Shape).ShapeCasts ⟨2, ![1, N]⟩) (h2 : (⟨2, ![1, N]⟩ : Shape).Broadcasts ⟨2, ![B, N]⟩)
    (h3 : (⟨2, ![1, N]⟩ : Shape).BroadcastsInDim ⟨2, ![M, N]⟩ ![0, 1])
    (P : Fin M) (p : Fin B) (q : Fin N)
    (hx : ∀ k : Fin K, (x (ix2 p k) : EReal) = A (ix2 P k)) (hw : ∀ k : Fin K, (w (ix2 k q) : EReal) = W (ix2 k q))
    (hr : (r (ix2 (0 : Fin 1) q) : EReal) = R (ix2 (0 : Fin 1) q)) :
    addf (matmul (DotDims.plain B K N) prec (truncf .bf16 x hlt) (truncf .bf16 w hlt) (constant ⟨2, ![B, N]⟩ .f32 0x00000000#32))
        (broadcastTo ⟨2, ![B, N]⟩ (shapeCast ⟨2, ![1, N]⟩ r h1) h2) (ix2 p q)
      = addf (Host.dotGeneral (DotDims.plain M K N) prec' A W) (broadcastInDim ⟨2, ![M, N]⟩ ![0, 1] h3 R) (ix2 P q) :=
  Cert.Lib.AffineRows.layer_row prec prec' A W (truncf .bf16 x hlt) (truncf .bf16 w hlt) _ _ P p q hx hw
    ((rowOver_apply r h1 h2 p q).trans (hr.trans (rowInDim_apply R h3 P q).symm))

/-- A dense body whose bias row is zero, at one entry: the host's product alone (`y + 0 = y` on the extended reals). -/
theorem dense_zero_point (prec prec' : Option ContractPrecision)
    (A : FVec Ideal ⟨2, ![M, K]⟩ .f32) (W : FVec Ideal ⟨2, ![K, N]⟩ .f32)
    (x : FVec Ideal ⟨2, ![B, K]⟩ .f32) (w : FVec Ideal ⟨2, ![K, N]⟩ .f32) (r : FVec Ideal ⟨2, ![1, N]⟩ .f32)
    (hlt : FTy.bf16.bits < FTy.f32.bits)
    (h1 : (⟨2, ![1, N]⟩ : Shape).ShapeCasts ⟨2, ![1, N]⟩) (h2 : (⟨2, ![1, N]⟩ : Shape).Broadcasts ⟨2, ![B, N]⟩)
    (P : Fin M) (p : Fin B) (q : Fin N)
    (hx : ∀ k : Fin K, (x (ix2 p k) : EReal) = A (ix2 P k)) (hw : ∀ k : Fin K, (w (ix2 k q) : EReal) = W (ix2 k q))
    (hr : (r (ix2 (0 : Fin 1) q) : EReal) = 0) :
    addf (matmul (DotDims.plain B K N) prec (truncf .bf16 x hlt) (truncf .bf16 w hlt) (constant ⟨2, ![B, N]⟩ .f32 0x00000000#32))
        (broadcastTo ⟨2, ![B, N]⟩ (shapeCast ⟨2, ![1, N]⟩ r h1) h2) (ix2 p q)
      = Host.dotGeneral (DotDims.plain M K N) prec' A W (ix2 P q) := by
  show FloatOps.addf (matmul (DotDims.plain B K N) prec (truncf .bf16 x hlt) (truncf .bf16 w hlt)
      (constant ⟨2, ![B, N]⟩ .f32 0x00000000#32) (ix2 p q)) (broadcastTo ⟨2, ![B, N]⟩ (shapeCast ⟨2, ![1, N]⟩ r h1) h2 (ix2 p q)) = _
  rw [rowOver_apply, hr, Ideal.addf_def, add_zero]
  exact Cert.Lib.RowBlock.matmul_eq_dotGeneral prec prec' .single A W (truncf .bf16 x hlt) (truncf .bf16 w hlt) P p q hx hw

/-- A bias-and-rectifier body at one entry: `max (g + r, 0)` on the block is `max (G + R, 0)` on the array. -/
theorem bias_relu_point (G : FVec Ideal ⟨2, ![M, N]⟩ .f32) (R : FVec Ideal ⟨2, ![1, N]⟩ .f32)
    (g : FVec Ideal ⟨2, ![B, N]⟩ .f32) (r : FVec Ideal ⟨2, ![1, N]⟩ .f32)
    (h0 : (⟨2, ![B, N]⟩ : Shape).ShapeCasts ⟨2, ![B, N]⟩)
    (h1 : (⟨2, ![1, N]⟩ : Shape).ShapeCasts ⟨2, ![1, N]⟩) (h2 : (⟨2, ![1, N]⟩ : Shape).Broadcasts ⟨2, ![B, N]⟩)
    (h3 : (⟨2, ![1, N]⟩ : Shape).BroadcastsInDim ⟨2, ![M, N]⟩ ![0, 1])
    (hbc : (⟨0, ![]⟩ : Shape).BroadcastsInDim ⟨2, ![M, N]⟩ ![])
    (P : Fin M) (p : Fin B) (q : Fin N)
    (hg : (g (ix2 p q) : EReal) = G (ix2 P q)) (hr : (r (ix2 (0 : Fin 1) q) : EReal) = R (ix2 (0 : Fin 1) q)) :
    maximumf (addf (shapeCast ⟨2, ![B, N]⟩ g h0) (broadcastTo ⟨2, ![B, N]⟩ (shapeCast ⟨2, ![1, N]⟩ r h1) h2))
        (broadcast ⟨2, ![B, N]⟩ (Scalar.ofBits .f32 0x00000000#32)) (ix2 p q)
      = maximumf (addf G (broadcastInDim ⟨2, ![M, N]⟩ ![0, 1] h3 R))
        (broadcastInDim ⟨2, ![M, N]⟩ ![] hbc (constant ⟨0, ![]⟩ .f32 0x00000000#32)) (ix2 P q) :=
  Cert.Lib.AffineRows.relu_row _ _ (ix2 p q) (ix2 P q) hbc (by
    show FloatOps.addf (shapeCast ⟨2, ![B, N]⟩ g h0 (ix2 p q)) (broadcastTo ⟨2, ![B, N]⟩ (shapeCast ⟨2, ![1, N]⟩ r h1) h2 (ix2 p q))
      = FloatOps.addf (G (ix2 P q)) (broadcastInDim ⟨2, ![M, N]⟩ ![0, 1] h3 R (ix2 P q))
    rw [shapeCast_self, rowOver_apply, rowInDim_apply, hg, hr])

end Cert.Lib.RowLayers

end
-- ==== Proof.Region0.lean ====
/-
  The first region's output array: the node features times the first weight.

  The region runs a dense body over 100 blocks of 5,000 rows with a bias row that is zero: block `t` of the output holds,
  at `(p, q)`, `∑ j, a (5000 t + p, j) * W (j, q) + 0`, which is entry `(5000 t + p, q)` of the host's product `a · W` (adding zero
  changes no extended real). The blocks tile the 500,000 rows, so the array the region leaves is that product (`final`).
-/
import proofs.«121053_j15650860827522_2_alg».proof.Proof.Gen.KernelIdeal.Frame
import proofs.«121053_j15650860827522_2_alg».proof.Proof.LibRowLayers

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The host's form of the layer's linear part: the product of the whole array with the weight. -/
def G (A : FVec Ideal S500000x34 .f32) (W : FVec Ideal S34x4 .f32) : FVec Ideal S500000x4 .f32 :=
  Host.dotGeneral (DotDims.plain 500000 34 4) none A W

/-- The body's stored value at entry `(p, q)` of a block whose row `p` is row `P` of the array, the bias row zero there. -/
theorem pay_apply (A : FVec Ideal S500000x34 .f32) (W : FVec Ideal S34x4 .f32)
    (x0 : Vec Ideal S5000x34 .f32) (x1 : Vec Ideal S34x4 .f32) (x2 : Vec Ideal S1x4 .f32)
    (P : Fin 500000) (p : Fin 5000) (q : Fin 4)
    (hx : ∀ j : Fin 34, (x0 (ix2 p j) : EReal) = A (ix2 P j)) (hw : ∀ j : Fin 34, (x1 (ix2 j q) : EReal) = W (ix2 j q))
    (hr : (x2 (ix2 (0 : Fin 1) q) : EReal) = 0) :
    k0_pay1 x0 x1 x2 (ix2 p q) = G A W (ix2 P q) := by
  unfold k0_pay1 G
  try dsimp only
  exact Cert.Lib.RowLayers.dense_zero_point none none A W x0 x1 x2 _ _ _ P p q hx hw hr

/-- The printed index maps over the grid: the row windows move with the point, the weight and the bias stay. -/
theorem idx_facts : ∀ t : Fin cfg0.N, (win0_3.index t (0 : Fin 2) = t.val ∧ win0_3.index t (1 : Fin 2) = 0)
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What point `t` writes back is block `t` of the host's product, the bias array being zero. -/
theorem flushed_eq (c : Dev nD) (hR : ∀ q : Fin 4, @Eq EReal (V c main_v31 (ix2 (0 : Fin 1) q)) 0) (t : Fin cfg0.N) :
    (dat0 V c).flushed 3 t = ((cfg0.win 3).blk t).view.read (Elt Ideal) (G (V c main_arg0) (V c main_arg2)) := by
  show (cfg0.win 3).cut (grid0.coords t) ((dat0 V c).after 3 t) = _
  rw [after0_3]
  unfold out0_3
  rw [View.canon_unit_zero hz]
  simp only [View.ld_unit_zero (S := S5000x34) hz, View.ld_unit_zero (S := S34x4) hz, View.ld_unit_zero (S := S1x4) hz]
  obtain ⟨⟨e30, e31⟩, e00, e01, e10, e11, e20, e21⟩ := idx_facts t
  have ht : t.val < 100 := lt_of_lt_of_eq t.isLt N_0
  funext j
  obtain ⟨p, q, rfl⟩ : ∃ (p : Fin 5000) (q : Fin 4), j = ix2 p q := ⟨j 0, j 1, eq_ix2 j⟩
  have hp : p.val < 5000 := p.isLt
  have hP : t.val * 5000 + p.val < 500000 := by omega
  show k0_pay1 (iblk0 V c 0 t) (iblk0 V c 1 t) (iblk0 V c 2 t) (ix2 p q)
    = G (V c main_arg0) (V c main_arg2) (((cfg0.win 3).blk t).view.emb (ix2 p q))
  have hemb : ((cfg0.win 3).blk t).view.emb (ix2 p q) = ix2 (⟨t.val * 5000 + p.val, hP⟩ : Fin 500000) q := by
    funext a; apply Fin.ext
    match a with
    | ⟨0, _⟩ => show win0_3.index t (0 : Fin 2) * 5000 + 1 * p.val = t.val * 5000 + p.val; omega
    | ⟨1, _⟩ => show win0_3.index t (1 : Fin 2) * 4 + 1 * q.val = q.val; omega
  rw [hemb]
  refine pay_apply (V c main_arg0) (V c main_arg2) (iblk0 V c 0 t) (iblk0 V c 1 t) (iblk0 V c 2 t)
    ⟨t.val * 5000 + p.val, hP⟩ p q (fun j => ?_) (fun j => ?_) ?_
  · show V c main_arg0 (((cfg0.win 0).blk t).view.emb (ix2 p j)) = V c main_arg0 (ix2 (⟨t.val * 5000 + p.val, hP⟩ : Fin 500000) j)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 34 + 1 * j.val = j.val; omega
  · show V c main_arg2 (((cfg0.win 1).blk t).view.emb (ix2 j q)) = V c main_arg2 (ix2 j q)
    refine congrArg _ (funext fun a => Fin.ext ?_)
    match a with
    | ⟨0, _⟩ => show win0_1.index t (0 : Fin 2) * 34 + 1 * j.val = j.val; omega
    | ⟨1, _⟩ => show win0_1.index t (1 : Fin 2) * 4 + 1 * q.val = q.val; omega
  · have he : ((cfg0.win 2).blk t).view.emb (ix2 (0 : Fin 1) q) = ix2 (0 : Fin 1) q := by
      funext a; apply Fin.ext
      match a with
      | ⟨0, _⟩ => show win0_2.index t (0 : Fin 2) * 1 + 1 * 0 = 0; omega
      | ⟨1, _⟩ => show win0_2.index t (1 : Fin 2) * 4 + 1 * q.val = q.val; omega
    show @Eq EReal (V c main_v31 (((cfg0.win 2).blk t).view.emb (ix2 (0 : Fin 1) q))) 0
    rw [he]
    exact hR q

/-- An index of the array is in point `t`'s block iff each coordinate is in the block's range on its axis. -/
theorem mem_blk (t : Fin cfg0.N) (i : S500000x4.Idx) :
    i ∈ ((cfg0.win 3).blk t).view.set ↔ ∀ a : Fin 2, win0_3.index t a * S5000x4.size a ≤ (i a).val
      ∧ (i a).val < win0_3.index t a * S5000x4.size a + S5000x4.size a := by
  show i ∈ ((View.whole main_v32).slice (win0_3.rect t)).set ↔ _
  rw [View.set_slice_whole, Rect.mem_set_unit]
  exact Iff.rfl

/-- The blocks tile the array: row `r` lies in the block of point `r / 5000`. -/
theorem cover (i : S500000x4.Idx) :
    ∃ t : Fin cfg0.N, (cfg0.win 3).flush t = true ∧ i ∈ ((cfg0.win 3).blk t).view.set := by
  have hi0 : (i 0).val < 500000 := (i 0).isLt
  have hi1 : (i 1).val < 4 := (i 1).isLt
  have hlt : (i 0).val / 5000 < grid0.N := by rw [N_0]; omega
  have eo := (idx_facts ⟨(i 0).val / 5000, hlt⟩).1
  refine ⟨⟨(i 0).val / 5000, hlt⟩, flush0_3 _, ?_⟩
  rw [mem_blk]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [eo.1]; show (i 0).val / 5000 * 5000 ≤ (i 0).val ∧ (i 0).val < (i 0).val / 5000 * 5000 + 5000; omega
  | ⟨1, _⟩ =>
    show win0_3.index ⟨(i 0).val / 5000, hlt⟩ (1 : Fin 2) * 4 ≤ (i 1).val
      ∧ (i 1).val < win0_3.index ⟨(i 0).val / 5000, hlt⟩ (1 : Fin 2) * 4 + 4
    rw [eo.2]; omega

/-- THE ARRAY the region leaves is the host's product of the arrays the region found, the bias array being zero. -/
theorem final (c : Dev nD) (hR : ∀ q : Fin 4, @Eq EReal (V c main_v31 (ix2 (0 : Fin 1) q)) 0) :
    (dat0 V c).arrAt 3 cfg0.N = G (V c main_arg0) (V c main_arg2) :=
  (dat0 V c).arrAt_eq_of_cover 3 (G (V c main_arg0) (V c main_arg2)) (fun t _ => flushed_eq V c hR t) cover

end Cert.KernelIdeal.Region0

end
-- ==== Proof.Region1.lean ====
/-
  The second region's output array: the first layer's aggregate, biased and rectified.

  The region runs a bias-and-rectifier body over 100 blocks of 5,000 rows: block `t` of the output holds, at `(p, q)`,
  `max (g (5000 t + p, q) + b (0, q), 0)`, which is entry `(5000 t + p, q)` of the host's `max (g + b, 0)` with the bias row put
  on both axes and the zero broadcast from a scalar. The blocks tile the 500,000 rows, so the array the region leaves is
  that host expression (`final`).
-/
import proofs.«121053_j15650860827522_2_alg».proof.Proof.Gen.KernelIdeal.Frame
import proofs.«121053_j15650860827522_2_alg».proof.Proof.LibRowLayers

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The host's form: the aggregate plus the bias row on both axes, rectified against a broadcast scalar zero. -/
def G (h3 : S1x4.BroadcastsInDim S500000x4 ![0, 1]) (hbc : S_.BroadcastsInDim S500000x4 ![])
    (A : FVec Ideal S500000x4 .f32) (R : FVec Ideal S1x4 .f32) : FVec Ideal S500000x4 .f32 :=
  maximumf (addf A (broadcastInDim S500000x4 ![0, 1] h3 R))
    (broadcastInDim S500000x4 ![] hbc (constant S_ .f32 0x00000000#32))

/-- The body's stored value at entry `(p, q)` of a block whose row `p` is row `P` of the array. -/
theorem pay_apply (h3 : S1x4.BroadcastsInDim S500000x4 ![0, 1]) (hbc : S_.BroadcastsInDim S500000x4 ![])
    (A : FVec Ideal S500000x4 .f32) (R : FVec Ideal S1x4 .f32)
    (x0 : Vec Ideal S5000x4 .f32) (x1 : Vec Ideal S1x4 .f32)
    (P : Fin 500000) (p : Fin 5000) (q : Fin 4)
    (hg : (x0 (ix2 p q) : EReal) = A (ix2 P q)) (hr : (x1 (ix2 (0 : Fin 1) q) : EReal) = R (ix2 (0 : Fin 1) q)) :
    k1_pay1 x0 x1 (ix2 p q) = G h3 hbc A R (ix2 P q) := by
  unfold k1_pay1 G
  dsimp only
  exact Cert.Lib.RowLayers.bias_relu_point A R x0 x1 _ _ _ h3 hbc P p q hg hr

/-- The printed index maps over the grid: the row windows move with the point, the bias stays. -/
theorem idx_facts : ∀ t : Fin cfg1.N, (win1_2.index t (0 : Fin 2) = t.val ∧ win1_2.index t (1 : Fin 2) = 0)
    ∧ win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- What point `t` writes back is block `t` of the host's form. -/
theorem flushed_eq (h3 : S1x4.BroadcastsInDim S500000x4 ![0, 1]) (hbc : S_.BroadcastsInDim S500000x4 ![])
    (c : Dev nD) (t : Fin cfg1.N) :
    (dat1 V c).flushed 2 t = ((cfg1.win 2).blk t).view.read (Elt Ideal) (G h3 hbc (V c main_v44) (V c main_v45)) := by
  show (cfg1.win 2).cut (grid1.coords t) ((dat1 V c).after 2 t) = _
  rw [after1_2]
  unfold out1_2
  rw [View.canon_unit_zero hz]
  simp only [View.ld_unit_zero (S := S5000x4) hz, View.ld_unit_zero (S := S1x4) hz]
  obtain ⟨⟨e20, e21⟩, e00, e01, e10, e11⟩ := idx_facts t
  have ht : t.val < 100 := lt_of_lt_of_eq t.isLt N_1
  funext j
  obtain ⟨p, q, rfl⟩ : ∃ (p : Fin 5000) (q : Fin 4), j = ix2 p q := ⟨j 0, j 1, eq_ix2 j⟩
  have hp : p.val < 5000 := p.isLt
  have hP : t.val * 5000 + p.val < 500000 := by omega
  show k1_pay1 (iblk1 V c 0 t) (iblk1 V c 1 t) (ix2 p q)
    = G h3 hbc (V c main_v44) (V c main_v45) (((cfg1.win 2).blk t).view.emb (ix2 p q))
  have hemb : ((cfg1.win 2).blk t).view.emb (ix2 p q) = ix2 (⟨t.val * 5000 + p.val, hP⟩ : Fin 500000) q := by
    funext a; apply Fin.ext
    match a with
    | ⟨0, _⟩ => show win1_2.index t (0 : Fin 2) * 5000 + 1 * p.val = t.val * 5000 + p.val; omega
    | ⟨1, _⟩ => show win1_2.index t (1 : Fin 2) * 4 + 1 * q.val = q.val; omega
  rw [hemb]
  refine pay_apply h3 hbc (V c main_v44) (V c main_v45) (iblk1 V c 0 t) (iblk1 V c 1 t)
    ⟨t.val * 5000 + p.val, hP⟩ p q ?_ ?_
  · show V c main_v44 (((cfg1.win 0).blk t).view.emb (ix2 p q)) = V c main_v44 (ix2 (⟨t.val * 5000 + p.val, hP⟩ : Fin 500000) q)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 4 + 1 * q.val = q.val; omega
  · show V c main_v45 (((cfg1.win 1).blk t).view.emb (ix2 (0 : Fin 1) q)) = V c main_v45 (ix2 (0 : Fin 1) q)
    refine congrArg _ (funext fun a => Fin.ext ?_)
    match a with
    | ⟨0, _⟩ => show win1_1.index t (0 : Fin 2) * 1 + 1 * 0 = 0; omega
    | ⟨1, _⟩ => show win1_1.index t (1 : Fin 2) * 4 + 1 * q.val = q.val; omega

/-- An index of the array is in point `t`'s block iff each coordinate is in the block's range on its axis. -/
theorem mem_blk (t : Fin cfg1.N) (i : S500000x4.Idx) :
    i ∈ ((cfg1.win 2).blk t).view.set ↔ ∀ a : Fin 2, win1_2.index t a * S5000x4.size a ≤ (i a).val
      ∧ (i a).val < win1_2.index t a * S5000x4.size a + S5000x4.size a := by
  show i ∈ ((View.whole main_v46).slice (win1_2.rect t)).set ↔ _
  rw [View.set_slice_whole, Rect.mem_set_unit]
  exact Iff.rfl

/-- The blocks tile the array: row `r` lies in the block of point `r / 5000`. -/
theorem cover (i : S500000x4.Idx) :
    ∃ t : Fin cfg1.N, (cfg1.win 2).flush t = true ∧ i ∈ ((cfg1.win 2).blk t).view.set := by
  have hi0 : (i 0).val < 500000 := (i 0).isLt
  have hi1 : (i 1).val < 4 := (i 1).isLt
  have hlt : (i 0).val / 5000 < grid1.N := by rw [N_1]; omega
  have eo := (idx_facts ⟨(i 0).val / 5000, hlt⟩).1
  refine ⟨⟨(i 0).val / 5000, hlt⟩, flush1_2 _, ?_⟩
  rw [mem_blk]
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    rw [eo.1]; show (i 0).val / 5000 * 5000 ≤ (i 0).val ∧ (i 0).val < (i 0).val / 5000 * 5000 + 5000; omega
  | ⟨1, _⟩ =>
    show win1_2.index ⟨(i 0).val / 5000, hlt⟩ (1 : Fin 2) * 4 ≤ (i 1).val
      ∧ (i 1).val < win1_2.index ⟨(i 0).val / 5000, hlt⟩ (1 : Fin 2) * 4 + 4
    rw [eo.2]; omega

/-- THE ARRAY the region leaves is the host's form on the arrays the region found. -/
theorem final (h3 : S1x4.BroadcastsInDim S500000x4 ![0, 1]) (hbc : S_.BroadcastsInDim S500000x4 ![]) (c : Dev nD) :
    (dat1 V c).arrAt 2 cfg1.N = G h3 hbc (V c main_v44) (V c main_v45) :=
  (dat1 V c).arrAt_eq_of_cover 2 (G h3 hbc (V c main_v44) (V c main_v45)) (fun t _ => flushed_eq V h3 hbc c t) cover

end Cert.KernelIdeal.Region1

end
-- ==== Proof.Chain1.lean ====
/-
  The kernel's buffers through the normalisation and the first layer, as the reference's stages.

  Both programs compute the edge list with self loops, the degrees and the symmetric edge weights by the same host
  operations, so the kernel's three arrays at the end of its first stretches are the reference's stages of the same
  argument (`src3`, `dst3`, `nrm3`). The first region then leaves `x · W₁` (its bias row is the zero row), the host
  gathers, scales and scatter-adds it exactly as the reference does, and the second region adds the bias and rectifies:
  the first layer's activations are the reference's stage (`act1`).
-/
import proofs.«121053_j15650860827522_2_alg».proof.Proof.Carry
import proofs.«121053_j15650860827522_2_alg».proof.Proof.HostFacts
import proofs.«121053_j15650860827522_2_alg».proof.Proof.Region0
import proofs.«121053_j15650860827522_2_alg».proof.Proof.Region1

set_option maxRecDepth 16384

noncomputable section

namespace Cert.KernelIdeal.Chain1

open Cert.KernelIdeal Cert.KernelIdeal.Gen Idealize.ShloMosaic Idealize.ShloMosaic.TcCoe Idealize.SL.Sem
open Idealize.ShloMosaic.ValueIdx Cert.ReferenceIdeal.ReadP

variable (m : (ℓ : Loc nD τ sig) → Buf (Elt Ideal) ℓ) (ρ : Dev nD → PrngReg) (c : Dev nD)

set_option quotPrecheck false

local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)

/-! ## The normalisation -/

/-- The edges' source nodes, self loops appended. -/
theorem src3 : W3 m ρ c (Proc.devRef .tc main_v3) = val_main_v3 (F := Ideal) a1 := HostFacts.src_of (F := Ideal) (W0 m ρ c)

/-- The edges' destination nodes, self loops appended. -/
theorem dst3 : W3 m ρ c (Proc.devRef .tc main_v6) = val_main_v6 (F := Ideal) a1 := HostFacts.dst_of (F := Ideal) (W0 m ρ c)

/-- The edge weights `d(src)^(-1/2) · d(dst)^(-1/2)`, as a column. -/
theorem nrm3 : W3 m ρ c (Proc.devRef .tc main_v30) = val_main_v30 (F := Ideal) a1 := HostFacts.nrm_of (F := Ideal) (W0 m ρ c)

/-- The first product's bias row is the zero row. -/
theorem bias0_zero (q : Fin 4) : @Eq EReal (V3 m ρ c main_v31 (ix2 (0 : Fin 1) q)) 0 := by
  exact (congrFun (HostFacts.zero1_of (F := Ideal) (W2 m ρ c)) (ix2 (0 : Fin 1) q)).trans Ideal.ofBits_zero_f32

/-! ## The first layer -/

/-- The first region leaves the features times the first weight. -/
theorem lin1 : W4 m ρ c (Proc.devRef .tc main_v32) = val_main_v31 (F := Ideal) a0 a2 := by
  refine (W4_arr m ρ c 3).trans ((Region0.final (V3 m ρ) c (bias0_zero m ρ c)).trans ?_)
  show Region0.G (W3 m ρ c (Proc.devRef .tc main_arg0)) (W3 m ρ c (Proc.devRef .tc main_arg2)) = _
  rw [Carry.at3 m ρ c main_arg0 (by simp [Carry.args]), Carry.at3 m ρ c main_arg2 (by simp [Carry.args])]
  rfl

/-- The host's gather along the sources, scaling by the edge weights and scatter-add along the destinations. -/
theorem agg1 : W5 m ρ c (Proc.devRef .tc main_v44) = val_main_v43 (F := Ideal) a0 a1 a2 :=
  HostFacts.agg1_of (F := Ideal) (W4 m ρ c) a0 a1 a2 (lin1 m ρ c)
    ((Carry.to4 m ρ c main_v3 (by simp [Carry.late1])).trans (src3 m ρ c))
    ((Carry.to4 m ρ c main_v6 (by simp [Carry.late1])).trans (dst3 m ρ c))
    ((Carry.to4 m ρ c main_v30 (by simp [Carry.late1])).trans (nrm3 m ρ c))

/-- The first bias, laid out as a row. -/
theorem row1 : W5 m ρ c (Proc.devRef .tc main_v45) = val_main_v44 (F := Ideal) a3 :=
  HostFacts.row1_of (F := Ideal) (W4 m ρ c) a3
    ((Carry.to4 m ρ c main_arg3 (by simp [Carry.late1])).trans (Carry.at3 m ρ c main_arg3 (by simp [Carry.args])))

/-- The second region leaves the first layer's activations. -/
theorem act1 : W6 m ρ c (Proc.devRef .tc main_v46) = val_main_v47 (F := Ideal) a0 a1 a2 a3 := by
  refine (W6_arr m ρ c 2).trans ((Region1.final (V5 m ρ) Cert.ReferenceIdeal.Facts₀.bcast_S1x4_S500000x4_0_1
    Cert.ReferenceIdeal.Facts₀.bcast_S_S500000x4 c).trans ?_)
  show Region1.G _ _ (W5 m ρ c (Proc.devRef .tc main_v44)) (W5 m ρ c (Proc.devRef .tc main_v45)) = _
  rw [agg1, row1]
  rfl

end Cert.KernelIdeal.Chain1

end
-- ==== Proof.Region2.lean ====
/-
  The third region's output array: the first layer's activations times the second weight.

  The region runs a dense body over 100 blocks of 5,000 rows with a bias row that is zero: block `t` of the output holds,
  at `(p, q)`, `∑ j, a (5000 t + p, j) * W (j, q) + 0`, which is entry `(5000 t + p, q)` of the host's product `a · W` (adding zero
  changes no extended real). The blocks tile the 500,000 rows, so the array the region leaves is that product (`final`).
-/
import proofs.«121053_j15650860827522_2_alg».proof.Proof.Gen.KernelIdeal.Frame
import proofs.«121053_j15650860827522_2_alg».proof.Proof.LibRowLayers

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The host's form of the layer's linear part: the product of the whole array with the weight. -/
def G (A : FVec Ideal S500000x4 .f32) (W : FVec Ideal S4x4 .f32) : FVec Ideal S500000x4 .f32 :=
  Host.dotGeneral (DotDims.plain 500000 4 4) none A W

/-- The body's stored value at entry `(p, q)` of a block whose row `p` is row `P` of the array, the bias row zero there. -/
theorem pay_apply (A : FVec Ideal S500000x4 .f32) (W : FVec Ideal S4x4 .f32)
    (x0 : Vec Ideal S5000x4 .f32) (x1 : Vec Ideal S4x4 .f32) (x2 : Vec Ideal S1x4 .f32)
    (P : Fin 500000) (p : Fin 5000) (q : Fin 4)
    (hx : ∀ j : Fin 4, (x0 (ix2 p j) : EReal) = A (ix2 P j)) (hw : ∀ j : Fin 4, (x1 (ix2 j q) : EReal) = W (ix2 j q))
    (hr : (x2 (ix2 (0 : Fin 1) q) : EReal) = 0) :
    k2_pay1 x0 x1 x2 (ix2 p q) = G A W (ix2 P q) := by
  unfold k2_pay1 G
  try dsimp only
  rw [shapeCast_self x0]
  exact Cert.Lib.RowLayers.dense_zero_point none none A W x0 x1 x2 _ _ _ P p q hx hw hr

/-- The printed index maps over the grid: the row windows move with the point, the weight and the bias stay. -/
theorem idx_facts : ∀ t : Fin cfg2.N, (win2_3.index t (0 : Fin 2) = t.val ∧ win2_3.index t (1 : Fin 2) = 0)
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- What point `t` writes back is block `t` of the host's product, the bias array being zero. -/
theorem flushed_eq (c : Dev nD) (hR : ∀ q : Fin 4, @Eq EReal (V c main_v47 (ix2 (0 : Fin 1) q)) 0) (t : Fin cfg2.N) :
    (dat2 V c).flushed 3 t = ((cfg2.win 3).blk t).view.read (Elt Ideal) (G (V c main_v46) (V c main_arg4)) := by
  show (cfg2.win 3).cut (grid2.coords t) ((dat2 V c).after 3 t) = _
  rw [after2_3]
  unfold out2_3
  rw [View.canon_unit_zero hz]
  simp only [View.ld_unit_zero (S := S5000x4) hz, View.ld_unit_zero (S := S4x4) hz, View.ld_unit_zero (S := S1x4) hz]
  obtain ⟨⟨e30, e31⟩, e00, e01, e10, e11, e20, e21⟩ := idx_facts t
  have ht : t.val < 100 := lt_of_lt_of_eq t.isLt N_2
  funext j
  obtain ⟨p, q, rfl⟩ : ∃ (p : Fin 5000) (q : Fin 4), j = ix2 p q := ⟨j 0, j 1, eq_ix2 j⟩
  have hp : p.val < 5000 := p.isLt
  have hP : t.val * 5000 + p.val < 500000 := by omega
  show k2_pay1 (iblk2 V c 0 t) (iblk2 V c 1 t) (iblk2 V c 2 t) (ix2 p q)
    = G (V c main_v46) (V c main_arg4) (((cfg2.win 3).blk t).view.emb (ix2 p q))
  have hemb : ((cfg2.win 3).blk t).view.emb (ix2 p q) = ix2 (⟨t.val * 5000 + p.val, hP⟩ : Fin 500000) q := by
    funext a; apply Fin.ext
    match a with
    | ⟨0, _⟩ => show win2_3.index t (0 : Fin 2) * 5000 + 1 * p.val = t.val * 5000 + p.val; omega
    | ⟨1, _⟩ => show win2_3.index t (1 : Fin 2) * 4 + 1 * q.val = q.val; omega
  rw [hemb]
  refine pay_apply (V c main_v46) (V c main_arg4) (iblk2 V c 0 t) (iblk2 V c 1 t) (iblk2 V c 2 t)
    ⟨t.val * 5000 + p.val, hP⟩ p q (fun j => ?_) (fun j => ?_) ?_
  · show V c main_v46 (((cfg2.win 0).blk t).view.emb (ix2 p j)) = V c main_v46 (ix2 (⟨t.val * 5000 + p.val, hP⟩ : Fin 500000) j)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 4 + 1 * j.val = j.val; omega
  · show V c main_arg4 (((cfg2.win 1).blk t).view.emb (ix2 j q)) = V c main_arg4 (ix2 j q)
    refine congrArg _ (funext fun a => Fin.ext ?_)
    match a with
    | ⟨0, _⟩ => show win2_1.index t (0 : Fin 2) * 4 + 1 * j.val = j.val; omega
    | ⟨1, _⟩ => show win2_1.index t (1 : Fin 2) * 4 + 1 * q.val = q.val; omega
  · have he : ((cfg2.win 2).blk t).view.emb (ix2 (0 : Fin 1) q) = ix2 (0 : Fin 1) q := by
      funext a; apply Fin.ext
      match a with
      | ⟨0, _⟩ => show win2_2.index t (0 : Fin 2) * 1 + 1 * 0 = 0; omega
      | ⟨1, _⟩ => show win2_2.index t (1 : Fin 2) * 4 + 1 * q.val = q.val; omega
    show @Eq EReal (V c main_v47 (((cfg2.win 2).blk t).view.emb (ix2 (0 : Fin 1) q))) 0
    rw [he]
    exact hR q

/-- An index of the array is in point `t`'s block iff each coordinate is in the block's range on its axis. -/
theorem mem_blk (t : Fin cfg2.N) (i : S500000x4.Idx) :
    i ∈ ((cfg2.win 3).blk t).view.set ↔ ∀ a : Fin 2, win2_3.index t a * S5000x4.size a ≤ (i a).val
      ∧ (i a).val < win2_3.index t a * S5000x4.size a + S5000x4.size a := by
  show i ∈ ((View.whole main_v48).slice (win2_3.rect t)).set ↔ _
  rw [View.set_slice_whole, Rect.mem_set_unit]
  exact Iff.rfl

/-- The blocks tile the array: row `r` lies in the block of point `r / 5000`. -/
theorem cover (i : S500000x4.Idx) :
    ∃ t : Fin cfg2.N, (cfg2.win 3).flush t = true ∧ i ∈ ((cfg2.win 3).blk t).view.set := by
  have hi0 : (i 0).val < 500000 := (i 0).isLt
  have hi1 : (i 1).val < 4 := (i 1).isLt
  have hlt : (i 0).val / 5000 < grid2.N := by rw [N_2]; omega
  have eo := (idx_facts ⟨(i 0).val / 5000, hlt⟩).1
  refine ⟨⟨(i 0).val / 5000, hlt⟩, flush2_3 _, ?_⟩
  rw [mem_blk]
  intro a
  match a with
  | ⟨0, _⟩ =>
    show win2_3.index ⟨(i 0).val / 5000, hlt⟩ (0 : Fin 2) * 5000 ≤ (i 0).val
      ∧ (i 0).val < win2_3.index ⟨(i 0).val / 5000, hlt⟩ (0 : Fin 2) * 5000 + 5000
    rw [eo.1]; show (i 0).val / 5000 * 5000 ≤ (i 0).val ∧ (i 0).val < (i 0).val / 5000 * 5000 + 5000; omega
  | ⟨1, _⟩ =>
    show win2_3.index ⟨(i 0).val / 5000, hlt⟩ (1 : Fin 2) * 4 ≤ (i 1).val
      ∧ (i 1).val < win2_3.index ⟨(i 0).val / 5000, hlt⟩ (1 : Fin 2) * 4 + 4
    rw [eo.2]; omega

/-- THE ARRAY the region leaves is the host's product of the arrays the region found, the bias array being zero. -/
theorem final (c : Dev nD) (hR : ∀ q : Fin 4, @Eq EReal (V c main_v47 (ix2 (0 : Fin 1) q)) 0) :
    (dat2 V c).arrAt 3 cfg2.N = G (V c main_v46) (V c main_arg4) :=
  (dat2 V c).arrAt_eq_of_cover 3 (G (V c main_v46) (V c main_arg4)) (fun t _ => flushed_eq V c hR t) cover

end Cert.KernelIdeal.Region2

end
-- ==== Proof.Region3.lean ====
/-
  The fourth region's output array: the second layer's aggregate, biased and rectified.

  The region runs a bias-and-rectifier body over 100 blocks of 5,000 rows: block `t` of the output holds, at `(p, q)`,
  `max (g (5000 t + p, q) + b (0, q), 0)`, which is entry `(5000 t + p, q)` of the host's `max (g + b, 0)` with the bias row put
  on both axes and the zero broadcast from a scalar. The blocks tile the 500,000 rows, so the array the region leaves is
  that host expression (`final`).
-/
import proofs.«121053_j15650860827522_2_alg».proof.Proof.Gen.KernelIdeal.Frame
import proofs.«121053_j15650860827522_2_alg».proof.Proof.LibRowLayers

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The host's form: the aggregate plus the bias row on both axes, rectified against a broadcast scalar zero. -/
def G (h3 : S1x4.BroadcastsInDim S500000x4 ![0, 1]) (hbc : S_.BroadcastsInDim S500000x4 ![])
    (A : FVec Ideal S500000x4 .f32) (R : FVec Ideal S1x4 .f32) : FVec Ideal S500000x4 .f32 :=
  maximumf (addf A (broadcastInDim S500000x4 ![0, 1] h3 R))
    (broadcastInDim S500000x4 ![] hbc (constant S_ .f32 0x00000000#32))

/-- The body's stored value at entry `(p, q)` of a block whose row `p` is row `P` of the array. -/
theorem pay_apply (h3 : S1x4.BroadcastsInDim S500000x4 ![0, 1]) (hbc : S_.BroadcastsInDim S500000x4 ![])
    (A : FVec Ideal S500000x4 .f32) (R : FVec Ideal S1x4 .f32)
    (x0 : Vec Ideal S5000x4 .f32) (x1 : Vec Ideal S1x4 .f32)
    (P : Fin 500000) (p : Fin 5000) (q : Fin 4)
    (hg : (x0 (ix2 p q) : EReal) = A (ix2 P q)) (hr : (x1 (ix2 (0 : Fin 1) q) : EReal) = R (ix2 (0 : Fin 1) q)) :
    k3_pay1 x0 x1 (ix2 p q) = G h3 hbc A R (ix2 P q) := by
  unfold k3_pay1 G
  dsimp only
  exact Cert.Lib.RowLayers.bias_relu_point A R x0 x1 _ _ _ h3 hbc P p q hg hr

/-- The printed index maps over the grid: the row windows move with the point, the bias stays. -/
theorem idx_facts : ∀ t : Fin cfg3.N, (win3_2.index t (0 : Fin 2) = t.val ∧ win3_2.index t (1 : Fin 2) = 0)
    ∧ win3_0.index t (0 : Fin 2) = t.val ∧ win3_0.index t (1 : Fin 2) = 0
    ∧ win3_1.index t (0 : Fin 2) = 0 ∧ win3_1.index t (1 : Fin 2) = 0 :=
  (by decide +kernel : ∀ t : Fin grid3.N, _)

/-- What point `t` writes back is block `t` of the host's form. -/
theorem flushed_eq (h3 : S1x4.BroadcastsInDim S500000x4 ![0, 1]) (hbc : S_.BroadcastsInDim S500000x4 ![])
    (c : Dev nD) (t : Fin cfg3.N) :
    (dat3 V c).flushed 2 t = ((cfg3.win 2).blk t).view.read (Elt Ideal) (G h3 hbc (V c main_v60) (V c main_v61)) := by
  show (cfg3.win 2).cut (grid3.coords t) ((dat3 V c).after 2 t) = _
  rw [after3_2]
  unfold out3_2
  rw [View.canon_unit_zero hz]
  simp only [View.ld_unit_zero (S := S5000x4) hz, View.ld_unit_zero (S := S1x4) hz]
  obtain ⟨⟨e20, e21⟩, e00, e01, e10, e11⟩ := idx_facts t
  have ht : t.val < 100 := lt_of_lt_of_eq t.isLt N_3
  funext j
  obtain ⟨p, q, rfl⟩ : ∃ (p : Fin 5000) (q : Fin 4), j = ix2 p q := ⟨j 0, j 1, eq_ix2 j⟩
  have hp : p.val < 5000 := p.isLt
  have hP : t.val * 5000 + p.val < 500000 := by omega
  show k3_pay1 (iblk3 V c 0 t) (iblk3 V c 1 t) (ix2 p q)
    = G h3 hbc (V c main_v60) (V c main_v61) (((cfg3.win 2).blk t).view.emb (ix2 p q))
  have hemb : ((cfg3.win 2).blk t).view.emb (ix2 p q) = ix2 (⟨t.val * 5000 + p.val, hP⟩ : Fin 500000) q := by
    funext a; apply Fin.ext
    match a with
    | ⟨0, _⟩ => show win3_2.index t (0 : Fin 2) * 5000 + 1 * p.val = t.val * 5000 + p.val; omega
    | ⟨1, _⟩ => show win3_2.index t (1 : Fin 2) * 4 + 1 * q.val = q.val; omega
  rw [hemb]
  refine pay_apply h3 hbc (V c main_v60) (V c main_v61) (iblk3 V c 0 t) (iblk3 V c 1 t)
    ⟨t.val * 5000 + p.val, hP⟩ p q ?_ ?_
  · show V c main_v60 (((cfg3.win 0).blk t).view.emb (ix2 p q)) = V c main_v60 (ix2 (⟨t.val * 5000 + p.val, hP⟩ : Fin 500000) q)
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 4 + 1 * q.val = q.val; omega
  · show V c main_v61 (((cfg3.win 1).blk t).view.emb (ix2 (0 : Fin 1) q)) = V c main_v61 (ix2 (0 : Fin 1) q)
    refine congrArg _ (funext fun a => Fin.ext ?_)
    match a with
    | ⟨0, _⟩ => show win3_1.index t (0 : Fin 2) * 1 + 1 * 0 = 0; omega
    | ⟨1, _⟩ => show win3_1.index t (1 : Fin 2) * 4 + 1 * q.val = q.val; omega

/-- An index of the array is in point `t`'s block iff each coordinate is in the block's range on its axis. -/
theorem mem_blk (t : Fin cfg3.N) (i : S500000x4.Idx) :
    i ∈ ((cfg3.win 2).blk t).view.set ↔ ∀ a : Fin 2, win3_2.index t a * S5000x4.size a ≤ (i a).val
      ∧ (i a).val < win3_2.index t a * S5000x4.size a + S5000x4.size a := by
  show i ∈ ((View.whole main_v62).slice (win3_2.rect t)).set ↔ _
  rw [View.set_slice_whole, Rect.mem_set_unit]
  exact Iff.rfl

/-- The blocks tile the array: row `r` lies in the block of point `r / 5000`. -/
theorem cover (i : S500000x4.Idx) :
    ∃ t : Fin cfg3.N, (cfg3.win 2).flush t = true ∧ i ∈ ((cfg3.win 2).blk t).view.set := by
  have hi0 : (i 0).val < 500000 := (i 0).isLt
  have hi1 : (i 1).val < 4 := (i 1).isLt
  have hlt : (i 0).val / 5000 < grid3.N := by rw [N_3]; omega
  have eo := (idx_facts ⟨(i 0).val / 5000, hlt⟩).1
  refine ⟨⟨(i 0).val / 5000, hlt⟩, flush3_2 _, ?_⟩
  rw [mem_blk]
  intro a
  match a with
  | ⟨0, _⟩ =>
    show win3_2.index ⟨(i 0).val / 5000, hlt⟩ (0 : Fin 2) * 5000 ≤ (i 0).val
      ∧ (i 0).val < win3_2.index ⟨(i 0).val / 5000, hlt⟩ (0 : Fin 2) * 5000 + 5000
    rw [eo.1]; show (i 0).val / 5000 * 5000 ≤ (i 0).val ∧ (i 0).val < (i 0).val / 5000 * 5000 + 5000; omega
  | ⟨1, _⟩ =>
    show win3_2.index ⟨(i 0).val / 5000, hlt⟩ (1 : Fin 2) * 4 ≤ (i 1).val
      ∧ (i 1).val < win3_2.index ⟨(i 0).val / 5000, hlt⟩ (1 : Fin 2) * 4 + 4
    rw [eo.2]; omega

/-- THE ARRAY the region leaves is the host's form on the arrays the region found. -/
theorem final (h3 : S1x4.BroadcastsInDim S500000x4 ![0, 1]) (hbc : S_.BroadcastsInDim S500000x4 ![]) (c : Dev nD) :
    (dat3 V c).arrAt 2 cfg3.N = G h3 hbc (V c main_v60) (V c main_v61) :=
  (dat3 V c).arrAt_eq_of_cover 2 (G h3 hbc (V c main_v60) (V c main_v61)) (fun t _ => flushed_eq V h3 hbc c t) cover

end Cert.KernelIdeal.Region3

end
-- ==== Proof.Chain2.lean ====
/-
  The kernel's buffers through the second layer, as the reference's stages.

  The third region multiplies the first layer's activations by the second weight (zero bias row); the host aggregates over the
  edges as the reference does; the fourth region adds the second bias and rectifies (`act2`).
-/
import proofs.«121053_j15650860827522_2_alg».proof.Proof.Chain1
import proofs.«121053_j15650860827522_2_alg».proof.Proof.Region2
import proofs.«121053_j15650860827522_2_alg».proof.Proof.Region3

set_option maxRecDepth 16384

noncomputable section

namespace Cert.KernelIdeal.Chain2

open Cert.KernelIdeal Cert.KernelIdeal.Gen Idealize.ShloMosaic Idealize.ShloMosaic.TcCoe Idealize.SL.Sem
open Idealize.ShloMosaic.ValueIdx Cert.ReferenceIdeal.ReadP

variable (m : (ℓ : Loc nD τ sig) → Buf (Elt Ideal) ℓ) (ρ : Dev nD → PrngReg) (c : Dev nD)

set_option quotPrecheck false

local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)

/-- This layer's product has the zero row for its bias. -/
theorem bias2_zero (q : Fin 4) : @Eq EReal (V7 m ρ c main_v47 (ix2 (0 : Fin 1) q)) 0 := by
  exact (congrFun (HostFacts.zero2_of (F := Ideal) (W6 m ρ c)) (ix2 (0 : Fin 1) q)).trans Ideal.ofBits_zero_f32

/-- The product region leaves the previous activations times this layer's weight. -/
theorem lin2 : W8 m ρ c (Proc.devRef .tc main_v48) = val_main_v48 (F := Ideal) a0 a1 a2 a3 a4 := by
  refine (W8_arr m ρ c 3).trans ((Region2.final (V7 m ρ) c (bias2_zero m ρ c)).trans ?_)
  show Region2.G (W7 m ρ c (Proc.devRef .tc main_v46)) (W7 m ρ c (Proc.devRef .tc main_arg4)) = _
  rw [(Carry.v46_W7 m ρ c).trans (Chain1.act1 m ρ c),
    (Carry.to7 m ρ c main_arg4 (by simp [Carry.late1])).trans (Carry.at3 m ρ c main_arg4 (by simp [Carry.args]))]
  rfl

/-- The host's gather along the sources, scaling by the edge weights and scatter-add along the destinations. -/
theorem agg2 : W9 m ρ c (Proc.devRef .tc main_v60) = val_main_v60 (F := Ideal) a0 a1 a2 a3 a4 :=
  HostFacts.agg2_of (F := Ideal) (W8 m ρ c) a0 a1 a2 a3 a4 (lin2 m ρ c)
    ((Carry.to8 m ρ c main_v3 (by simp [Carry.late2])).trans (Chain1.src3 m ρ c))
    ((Carry.to8 m ρ c main_v6 (by simp [Carry.late2])).trans (Chain1.dst3 m ρ c))
    ((Carry.to8 m ρ c main_v30 (by simp [Carry.late2])).trans (Chain1.nrm3 m ρ c))

/-- This layer's bias, laid out as a row. -/
theorem row2 : W9 m ρ c (Proc.devRef .tc main_v61) = val_main_v61 (F := Ideal) a5 :=
  HostFacts.row2_of (F := Ideal) (W8 m ρ c) a5
    ((Carry.to8 m ρ c main_arg5 (by simp [Carry.late2])).trans (Carry.at3 m ρ c main_arg5 (by simp [Carry.args])))

/-- The bias-and-rectifier region leaves this layer's activations. -/
theorem act2 : W10 m ρ c (Proc.devRef .tc main_v62) = val_main_v64 (F := Ideal) a0 a1 a2 a3 a4 a5 := by
  refine (W10_arr m ρ c 2).trans ((Region3.final (V9 m ρ) Cert.ReferenceIdeal.Facts₀.bcast_S1x4_S500000x4_0_1
    Cert.ReferenceIdeal.Facts₀.bcast_S_S500000x4 c).trans ?_)
  show Region3.G _ _ (W9 m ρ c (Proc.devRef .tc main_v60)) (W9 m ρ c (Proc.devRef .tc main_v61)) = _
  rw [agg2, row2]
  rfl

end Cert.KernelIdeal.Chain2

end
-- ==== Proof.Region4.lean ====
/-
  The fifth region's output array: the second layer's activations times the third weight.

  The region runs a dense body over 100 blocks of 5,000 rows with a bias row that is zero: block `t` of the output holds,
  at `(p, q)`, `∑ j, a (5000 t + p, j) * W (j, q) + 0`, which is entry `(5000 t + p, q)` of the host's product `a · W` (adding zero
  changes no extended real). The blocks tile the 500,000 rows, so the array the region leaves is that product (`final`).
-/
import proofs.«121053_j15650860827522_2_alg».proof.Proof.Gen.KernelIdeal.Frame
import proofs.«121053_j15650860827522_2_alg».proof.Proof.LibRowLayers

noncomputable section

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The host's form of the layer's linear part: the product of the whole array with the weight. -/
def G (A : FVec Ideal S500000x4 .f32) (W : FVec Ideal S4x2 .f32) : FVec Ideal S500000x2 .f32 :=
  Host.dotGeneral (DotDims.plain 500000 4 2) none A W

/-- The body's stored value at entry `(p, q)` of a block whose row `p` is row `P` of the array, the bias row zero there. -/
theorem pay_apply (A : FVec Ideal S500000x4 .f32) (W : FVec Ideal S4x2 .f32)
    (x0 : Vec Ideal S5000x4 .f32) (x1 : Vec Ideal S4x2 .f32) (x2 : Vec Ideal S1x2 .f32)
    (P : Fin 500000) (p : Fin 5000) (q : Fin 2)
    (hx : ∀ j : Fin 4, (x0 (ix2 p j) : EReal) = A (ix2 P j)) (hw : ∀ j : Fin 4, (x1 (ix2 j q) : EReal) = W (ix2 j q))
    (hr : (x2 (ix2 (0 : Fin 1) q) : EReal) = 0) :
    k4_pay1 x0 x1 x2 (ix2 p q) = G A W (ix2 P q) := by
  unfold k4_pay1 G
  try dsimp only
  rw [shapeCast_self x0]
  exact Cert.Lib.RowLayers.dense_zero_point none none A W x0 x1 x2 _ _ _ P p q hx hw hr

/-- The printed index maps over the grid: the row windows move with the point, the weight and the bias stay. -/
theorem idx_facts : ∀ t : Fin cfg4.N, (win4_3.index t (0 : Fin 2) = t.val ∧ win4_3.index t (1 : Fin 2) = 0)
    ∧ win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- What point `t` writes back is block `t` of the host's product, the bias array being zero. -/
theorem flushed_eq (c : Dev nD) (hR : ∀ q : Fin 2, @Eq EReal (V c main_v63 (ix2 (0 : Fin 1) q)) 0) (t : Fin cfg4.N) :
    (dat4 V c).flushed 3 t = ((cfg4.win 3).blk t).view.read (Elt Ideal) (G (V c main_v62) (V c main_arg6)) := by
  show (cfg4.win 3).cut (grid4.coords t) ((dat4 V c).after 3 t) = _
  rw [after4_3]
  unfold out4_3
  rw [View.canon_unit_zero hz]
  simp only [View.ld_unit_zero (S := S5000x4) hz, View.ld_unit_zero (S := S4x2) hz, View.ld_unit_zero (S := S1x2) hz]
  obtain ⟨⟨e30, e31⟩, e00, e01, e10, e11, e20, e21⟩ := idx_facts t
  have ht : t.val < 100 := lt_of_lt_of_eq t.isLt N_4
  funext j
  obtain ⟨p, q, rfl⟩ : ∃ (p : Fin 5000) (q : Fin 2), j = ix2 p q := ⟨j 0, j 1, eq_ix2 j⟩
  have hp : p.val < 5000 := p.isLt
  have hP : t.val * 5000 + p.val < 500000 := by omega
  show k4_pay1 (iblk4 V c 0 t) (iblk4 V c 1 t) (iblk4 V c 2 t) (ix2 p q)
    = G (V c main_v62) (V c main_arg6) (((cfg4.win 3).blk t).view.emb (ix2 p q))
  have hemb : ((cfg4.win 3).blk t).view.emb (ix2 p q) = ix2 (⟨t.val * 5000 + p.val, hP⟩ : Fin 500000) q := by
    funext a; apply Fin.ext
    match a with
    | ⟨0, _⟩ => show win4_3.index t (0 : Fin 2) * 5000 + 1 * p.val = t.val * 5000 + p.val; omega
    | ⟨1, _⟩ => show win4_3.index t (1 : Fin 2) * 2 + 1 * q.val = q.val; omega
  rw [hemb]
  refine pay_apply (V c main_v62) (V c main_arg6) (iblk4 V c 0 t) (iblk4 V c 1 t) (iblk4 V c 2 t)
    ⟨t.val * 5000 + p.val, hP⟩ p q (fun j => ?_) (fun j => ?_) ?_
  · show V c main_v62 (((cfg4.win 0).blk t).view.emb (ix2 p j)) = V c main_v62 (ix2 (⟨t.val * 5000 + p.val, hP⟩ : Fin 500000) j)
    refine congrArg _ (funext fun a => Fin.ext ?_)
    match a with
    | ⟨0, _⟩ => show win4_0.index t (0 : Fin 2) * 5000 + 1 * p.val = t.val * 5000 + p.val; omega
    | ⟨1, _⟩ => show win4_0.index t (1 : Fin 2) * 4 + 1 * j.val = j.val; omega
  · show V c main_arg6 (((cfg4.win 1).blk t).view.emb (ix2 j q)) = V c main_arg6 (ix2 j q)
    refine congrArg _ (funext fun a => Fin.ext ?_)
    match a with
    | ⟨0, _⟩ => show win4_1.index t (0 : Fin 2) * 4 + 1 * j.val = j.val; omega
    | ⟨1, _⟩ => show win4_1.index t (1 : Fin 2) * 2 + 1 * q.val = q.val; omega
  · have he : ((cfg4.win 2).blk t).view.emb (ix2 (0 : Fin 1) q) = ix2 (0 : Fin 1) q := by
      funext a; apply Fin.ext
      match a with
      | ⟨0, _⟩ => show win4_2.index t (0 : Fin 2) * 1 + 1 * 0 = 0; omega
      | ⟨1, _⟩ => show win4_2.index t (1 : Fin 2) * 2 + 1 * q.val = q.val; omega
    show @Eq EReal (V c main_v63 (((cfg4.win 2).blk t).view.emb (ix2 (0 : Fin 1) q))) 0
    rw [he]
    exact hR q

/-- An index of the array is in point `t`'s block iff each coordinate is in the block's range on its axis. -/
theorem mem_blk (t : Fin cfg4.N) (i : S500000x2.Idx) :
    i ∈ ((cfg4.win 3).blk t).view.set ↔ ∀ a : Fin 2, win4_3.index t a * S5000x2.size a ≤ (i a).val
      ∧ (i a).val < win4_3.index t a * S5000x2.size a + S5000x2.size a := by
  show i ∈ ((View.whole main_v64).slice (win4_3.rect t)).set ↔ _
  rw [View.set_slice_whole, Rect.mem_set_unit]
  exact Iff.rfl

/-- The blocks tile the array: row `r` lies in the block of point `r / 5000`. -/
theorem cover (i : S500000x2.Idx) :
    ∃ t : Fin cfg4.N, (cfg4.win 3).flush t = true ∧ i ∈ ((cfg4.win 3).blk t).view.set := by
  have hi0 : (i 0).val < 500000 := (i 0).isLt
  have hi1 : (i 1).val < 2 := (i 1).isLt
  have hlt : (i 0).val / 5000 < grid4.N := by rw [N_4]; omega
  have eo := (idx_facts ⟨(i 0).val / 5000, hlt⟩).1
  refine ⟨⟨(i 0).val / 5000, hlt⟩, flush4_3 _, ?_⟩
  rw [mem_blk]
  intro a
  match a with
  | ⟨0, _⟩ =>
    show win4_3.index ⟨(i 0).val / 5000, hlt⟩ (0 : Fin 2) * 5000 ≤ (i 0).val
      ∧ (i 0).val < win4_3.index ⟨(i 0).val / 5000, hlt⟩ (0 : Fin 2) * 5000 + 5000
    rw [eo.1]; show (i 0).val / 5000 * 5000 ≤ (i 0).val ∧ (i 0).val < (i 0).val / 5000 * 5000 + 5000; omega
  | ⟨1, _⟩ =>
    show win4_3.index ⟨(i 0).val / 5000, hlt⟩ (1 : Fin 2) * 2 ≤ (i 1).val
      ∧ (i 1).val < win4_3.index ⟨(i 0).val / 5000, hlt⟩ (1 : Fin 2) * 2 + 2
    rw [eo.2]; omega

/-- THE ARRAY the region leaves is the host's product of the arrays the region found, the bias array being zero. -/
theorem final (c : Dev nD) (hR : ∀ q : Fin 2, @Eq EReal (V c main_v63 (ix2 (0 : Fin 1) q)) 0) :
    (dat4 V c).arrAt 3 cfg4.N = G (V c main_v62) (V c main_arg6) :=
  (dat4 V c).arrAt_eq_of_cover 3 (G (V c main_v62) (V c main_arg6)) (fun t _ => flushed_eq V c hR t) cover

end Cert.KernelIdeal.Region4

end
-- ==== Proof.Region5.lean ====
/-
  The sixth region's output array: the third layer's aggregate, biased and rectified.

  The region runs a bias-and-rectifier body over 100 blocks of 5,000 rows: block `t` of the output holds, at `(p, q)`,
  `max (g (5000 t + p, q) + b (0, q), 0)`, which is entry `(5000 t + p, q)` of the host's `max (g + b, 0)` with the bias row put
  on both axes and the zero broadcast from a scalar. The blocks tile the 500,000 rows, so the array the region leaves is
  that host expression (`final`).
-/
import proofs.«121053_j15650860827522_2_alg».proof.Proof.Gen.KernelIdeal.Frame
import proofs.«121053_j15650860827522_2_alg».proof.Proof.LibRowLayers

noncomputable section

namespace Cert.KernelIdeal.Region5

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The host's form: the aggregate plus the bias row on both axes, rectified against a broadcast scalar zero. -/
def G (h3 : S1x2.BroadcastsInDim S500000x2 ![0, 1]) (hbc : S_.BroadcastsInDim S500000x2 ![])
    (A : FVec Ideal S500000x2 .f32) (R : FVec Ideal S1x2 .f32) : FVec Ideal S500000x2 .f32 :=
  maximumf (addf A (broadcastInDim S500000x2 ![0, 1] h3 R))
    (broadcastInDim S500000x2 ![] hbc (constant S_ .f32 0x00000000#32))

/-- The body's stored value at entry `(p, q)` of a block whose row `p` is row `P` of the array. -/
theorem pay_apply (h3 : S1x2.BroadcastsInDim S500000x2 ![0, 1]) (hbc : S_.BroadcastsInDim S500000x2 ![])
    (A : FVec Ideal S500000x2 .f32) (R : FVec Ideal S1x2 .f32)
    (x0 : Vec Ideal S5000x2 .f32) (x1 : Vec Ideal S1x2 .f32)
    (P : Fin 500000) (p : Fin 5000) (q : Fin 2)
    (hg : (x0 (ix2 p q) : EReal) = A (ix2 P q)) (hr : (x1 (ix2 (0 : Fin 1) q) : EReal) = R (ix2 (0 : Fin 1) q)) :
    k5_pay1 x0 x1 (ix2 p q) = G h3 hbc A R (ix2 P q) := by
  unfold k5_pay1 G
  dsimp only
  exact Cert.Lib.RowLayers.bias_relu_point A R x0 x1 _ _ _ h3 hbc P p q hg hr

/-- The printed index maps over the grid: the row windows move with the point, the bias stays. -/
theorem idx_facts : ∀ t : Fin cfg5.N, (win5_2.index t (0 : Fin 2) = t.val ∧ win5_2.index t (1 : Fin 2) = 0)
    ∧ win5_0.index t (0 : Fin 2) = t.val ∧ win5_0.index t (1 : Fin 2) = 0
    ∧ win5_1.index t (0 : Fin 2) = 0 ∧ win5_1.index t (1 : Fin 2) = 0 :=
  (by decide +kernel : ∀ t : Fin grid5.N, _)

/-- What point `t` writes back is block `t` of the host's form. -/
theorem flushed_eq (h3 : S1x2.BroadcastsInDim S500000x2 ![0, 1]) (hbc : S_.BroadcastsInDim S500000x2 ![])
    (c : Dev nD) (t : Fin cfg5.N) :
    (dat5 V c).flushed 2 t = ((cfg5.win 2).blk t).view.read (Elt Ideal) (G h3 hbc (V c main_v76) (V c main_v77)) := by
  show (cfg5.win 2).cut (grid5.coords t) ((dat5 V c).after 2 t) = _
  rw [after5_2]
  unfold out5_2
  rw [View.canon_unit_zero hz]
  simp only [View.ld_unit_zero (S := S5000x2) hz, View.ld_unit_zero (S := S1x2) hz]
  obtain ⟨⟨e20, e21⟩, e00, e01, e10, e11⟩ := idx_facts t
  have ht : t.val < 100 := lt_of_lt_of_eq t.isLt N_5
  funext j
  obtain ⟨p, q, rfl⟩ : ∃ (p : Fin 5000) (q : Fin 2), j = ix2 p q := ⟨j 0, j 1, eq_ix2 j⟩
  have hp : p.val < 5000 := p.isLt
  have hP : t.val * 5000 + p.val < 500000 := by omega
  show k5_pay1 (iblk5 V c 0 t) (iblk5 V c 1 t) (ix2 p q)
    = G h3 hbc (V c main_v76) (V c main_v77) (((cfg5.win 2).blk t).view.emb (ix2 p q))
  have hemb : ((cfg5.win 2).blk t).view.emb (ix2 p q) = ix2 (⟨t.val * 5000 + p.val, hP⟩ : Fin 500000) q := by
    funext a; apply Fin.ext
    match a with
    | ⟨0, _⟩ => show win5_2.index t (0 : Fin 2) * 5000 + 1 * p.val = t.val * 5000 + p.val; omega
    | ⟨1, _⟩ => show win5_2.index t (1 : Fin 2) * 2 + 1 * q.val = q.val; omega
  rw [hemb]
  refine pay_apply h3 hbc (V c main_v76) (V c main_v77) (iblk5 V c 0 t) (iblk5 V c 1 t)
    ⟨t.val * 5000 + p.val, hP⟩ p q ?_ ?_
  · show V c main_v76 (((cfg5.win 0).blk t).view.emb (ix2 p q)) = V c main_v76 (ix2 (⟨t.val * 5000 + p.val, hP⟩ : Fin 500000) q)
    refine congrArg _ (funext fun a => Fin.ext ?_)
    match a with
    | ⟨0, _⟩ => show win5_0.index t (0 : Fin 2) * 5000 + 1 * p.val = t.val * 5000 + p.val; omega
    | ⟨1, _⟩ => show win5_0.index t (1 : Fin 2) * 2 + 1 * q.val = q.val; omega
  · show V c main_v77 (((cfg5.win 1).blk t).view.emb (ix2 (0 : Fin 1) q)) = V c main_v77 (ix2 (0 : Fin 1) q)
    refine congrArg _ (funext fun a => Fin.ext ?_)
    match a with
    | ⟨0, _⟩ => show win5_1.index t (0 : Fin 2) * 1 + 1 * 0 = 0; omega
    | ⟨1, _⟩ => show win5_1.index t (1 : Fin 2) * 2 + 1 * q.val = q.val; omega

/-- An index of the array is in point `t`'s block iff each coordinate is in the block's range on its axis. -/
theorem mem_blk (t : Fin cfg5.N) (i : S500000x2.Idx) :
    i ∈ ((cfg5.win 2).blk t).view.set ↔ ∀ a : Fin 2, win5_2.index t a * S5000x2.size a ≤ (i a).val
      ∧ (i a).val < win5_2.index t a * S5000x2.size a + S5000x2.size a := by
  show i ∈ ((View.whole main_v78).slice (win5_2.rect t)).set ↔ _
  rw [View.set_slice_whole, Rect.mem_set_unit]
  exact Iff.rfl

/-- The blocks tile the array: row `r` lies in the block of point `r / 5000`. -/
theorem cover (i : S500000x2.Idx) :
    ∃ t : Fin cfg5.N, (cfg5.win 2).flush t = true ∧ i ∈ ((cfg5.win 2).blk t).view.set := by
  have hi0 : (i 0).val < 500000 := (i 0).isLt
  have hi1 : (i 1).val < 2 := (i 1).isLt
  have hlt : (i 0).val / 5000 < grid5.N := by rw [N_5]; omega
  have eo := (idx_facts ⟨(i 0).val / 5000, hlt⟩).1
  refine ⟨⟨(i 0).val / 5000, hlt⟩, flush5_2 _, ?_⟩
  rw [mem_blk]
  intro a
  match a with
  | ⟨0, _⟩ =>
    show win5_2.index ⟨(i 0).val / 5000, hlt⟩ (0 : Fin 2) * 5000 ≤ (i 0).val
      ∧ (i 0).val < win5_2.index ⟨(i 0).val / 5000, hlt⟩ (0 : Fin 2) * 5000 + 5000
    rw [eo.1]; show (i 0).val / 5000 * 5000 ≤ (i 0).val ∧ (i 0).val < (i 0).val / 5000 * 5000 + 5000; omega
  | ⟨1, _⟩ =>
    show win5_2.index ⟨(i 0).val / 5000, hlt⟩ (1 : Fin 2) * 2 ≤ (i 1).val
      ∧ (i 1).val < win5_2.index ⟨(i 0).val / 5000, hlt⟩ (1 : Fin 2) * 2 + 2
    rw [eo.2]; omega

/-- THE ARRAY the region leaves is the host's form on the arrays the region found. -/
theorem final (h3 : S1x2.BroadcastsInDim S500000x2 ![0, 1]) (hbc : S_.BroadcastsInDim S500000x2 ![]) (c : Dev nD) :
    (dat5 V c).arrAt 2 cfg5.N = G h3 hbc (V c main_v76) (V c main_v77) :=
  (dat5 V c).arrAt_eq_of_cover 2 (G h3 hbc (V c main_v76) (V c main_v77)) (fun t _ => flushed_eq V h3 hbc c t) cover

end Cert.KernelIdeal.Region5

end
-- ==== Proof.Chain3.lean ====
/-
  The kernel's buffers through the third layer, as the reference's stages.

  The fifth region multiplies the second layer's activations by the third weight (zero bias row); the host aggregates over the
  edges as the reference does; the sixth region adds the third bias and rectifies: the node embeddings, the program's second
  result (`act3`).
-/
import proofs.«121053_j15650860827522_2_alg».proof.Proof.Chain2
import proofs.«121053_j15650860827522_2_alg».proof.Proof.Region4
import proofs.«121053_j15650860827522_2_alg».proof.Proof.Region5

set_option maxRecDepth 16384

noncomputable section

namespace Cert.KernelIdeal.Chain3

open Cert.KernelIdeal Cert.KernelIdeal.Gen Idealize.ShloMosaic Idealize.ShloMosaic.TcCoe Idealize.SL.Sem
open Idealize.ShloMosaic.ValueIdx Cert.ReferenceIdeal.ReadP

variable (m : (ℓ : Loc nD τ sig) → Buf (Elt Ideal) ℓ) (ρ : Dev nD → PrngReg) (c : Dev nD)

set_option quotPrecheck false

local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)

/-- This layer's product has the zero row for its bias. -/
theorem bias4_zero (q : Fin 2) : @Eq EReal (V11 m ρ c main_v63 (ix2 (0 : Fin 1) q)) 0 := by
  exact (congrFun (HostFacts.zero3_of (F := Ideal) (W10 m ρ c)) (ix2 (0 : Fin 1) q)).trans Ideal.ofBits_zero_f32

/-- The product region leaves the previous activations times this layer's weight. -/
theorem lin3 : W12 m ρ c (Proc.devRef .tc main_v64) = val_main_v65 (F := Ideal) a0 a1 a2 a3 a4 a5 a6 := by
  refine (W12_arr m ρ c 3).trans ((Region4.final (V11 m ρ) c (bias4_zero m ρ c)).trans ?_)
  show Region4.G (W11 m ρ c (Proc.devRef .tc main_v62)) (W11 m ρ c (Proc.devRef .tc main_arg6)) = _
  rw [(Carry.v62_W11 m ρ c).trans (Chain2.act2 m ρ c),
    (Carry.to11 m ρ c main_arg6 (by simp [Carry.late2])).trans (Carry.at3 m ρ c main_arg6 (by simp [Carry.args]))]
  rfl

/-- The host's gather along the sources, scaling by the edge weights and scatter-add along the destinations. -/
theorem agg3 : W13 m ρ c (Proc.devRef .tc main_v76) = val_main_v77 (F := Ideal) a0 a1 a2 a3 a4 a5 a6 :=
  HostFacts.agg3_of (F := Ideal) (W12 m ρ c) a0 a1 a2 a3 a4 a5 a6 (lin3 m ρ c)
    ((Carry.to12 m ρ c main_v3 (by simp [Carry.late3])).trans (Chain1.src3 m ρ c))
    ((Carry.to12 m ρ c main_v6 (by simp [Carry.late3])).trans (Chain1.dst3 m ρ c))
    ((Carry.to12 m ρ c main_v30 (by simp [Carry.late3])).trans (Chain1.nrm3 m ρ c))

/-- This layer's bias, laid out as a row. -/
theorem row3 : W13 m ρ c (Proc.devRef .tc main_v77) = val_main_v78 (F := Ideal) a7 :=
  HostFacts.row3_of (F := Ideal) (W12 m ρ c) a7
    ((Carry.to12 m ρ c main_arg7 (by simp [Carry.late3])).trans (Carry.at3 m ρ c main_arg7 (by simp [Carry.args])))

/-- The bias-and-rectifier region leaves this layer's activations. -/
theorem act3 : W14 m ρ c (Proc.devRef .tc main_v78) = val_main_v81 (F := Ideal) a0 a1 a2 a3 a4 a5 a6 a7 := by
  refine (W14_arr m ρ c 2).trans ((Region5.final (V13 m ρ) Cert.ReferenceIdeal.Facts₀.bcast_S1x2_S500000x2_0_1
    Cert.ReferenceIdeal.Facts₀.bcast_S_S500000x2 c).trans ?_)
  show Region5.G _ _ (W13 m ρ c (Proc.devRef .tc main_v76)) (W13 m ρ c (Proc.devRef .tc main_v77)) = _
  rw [agg3, row3]
  rfl

end Cert.KernelIdeal.Chain3

end
-- ==== Proof.Region6.lean ====
/-
  The last region's output array as one function of the arrays the region finds.

  The region runs a dense body over 100 blocks of 5,000 rows: block `t` of the output holds, at `(p, q)`,
  `∑ k, h (5000 t + p, k) * W (k, q) + b (0, q)` — rows `5000 t … 5000 t + 4999` of the host's `h · W` plus the bias row put on
  both axes. The blocks tile the 500,000 rows (row `r` lies in block `r / 5000`), so the array the region leaves is that
  host expression itself (`final`).
-/
import proofs.«121053_j15650860827522_2_alg».proof.Proof.Gen.KernelIdeal.Frame
import proofs.«121053_j15650860827522_2_alg».proof.Proof.LibRowLayers

noncomputable section

namespace Cert.KernelIdeal.Region6

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The host's form of the layer: the product of the whole array with the weight, plus the bias row on both axes. -/
def G (h3 : S1x4.BroadcastsInDim S500000x4 ![0, 1]) (A : FVec Ideal S500000x2 .f32) (W : FVec Ideal S2x4 .f32)
    (R : FVec Ideal S1x4 .f32) : FVec Ideal S500000x4 .f32 :=
  addf (Host.dotGeneral (DotDims.plain 500000 2 4) none A W) (broadcastInDim S500000x4 ![0, 1] h3 R)

/-- The body's stored value at entry `(p, q)` of a block whose row `p` is row `P` of the array. -/
theorem pay_apply (h3 : S1x4.BroadcastsInDim S500000x4 ![0, 1]) (A : FVec Ideal S500000x2 .f32) (W : FVec Ideal S2x4 .f32)
    (R : FVec Ideal S1x4 .f32) (x0 : Vec Ideal S5000x2 .f32) (x1 : Vec Ideal S2x4 .f32) (x2 : Vec Ideal S1x4 .f32)
    (P : Fin 500000) (p : Fin 5000) (q : Fin 4)
    (hx : ∀ k : Fin 2, (x0 (ix2 p k) : EReal) = A (ix2 P k)) (hw : ∀ k : Fin 2, (x1 (ix2 k q) : EReal) = W (ix2 k q))
    (hr : (x2 (ix2 (0 : Fin 1) q) : EReal) = R (ix2 (0 : Fin 1) q)) :
    k6_pay1 x0 x1 x2 (ix2 p q) = G h3 A W R (ix2 P q) := by
  unfold k6_pay1 G
  dsimp only
  rw [shapeCast_self]
  exact Cert.Lib.RowLayers.dense_bias_point none none A W R x0 x1 x2 _ _ _ h3 P p q hx hw hr

/-- The printed index maps over the grid: the row windows move with the point, the weight and the bias stay. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point `t` writes back is block `t` of the host's form of the layer. -/
theorem flushed_eq (h3 : S1x4.BroadcastsInDim S500000x4 ![0, 1]) (c : Dev nD) (t : Fin cfg6.N) :
    (dat6 V c).flushed 3 t
      = ((cfg6.win 3).blk t).view.read (Elt Ideal) (G h3 (V c main_v78) (V c main_arg8) (V c main_v79)) := by
  show (cfg6.win 3).cut (grid6.coords t) ((dat6 V c).after 3 t) = _
  rw [after6_3]
  unfold out6_3
  rw [View.canon_unit_zero hz]
  simp only [View.ld_unit_zero (S := S5000x2) hz, View.ld_unit_zero (S := S2x4) hz, View.ld_unit_zero (S := S1x4) hz]
  obtain ⟨e00, e01, e10, e11, e20, e21, e30, e31⟩ := idx_facts t
  have ht : t.val < 100 := lt_of_lt_of_eq t.isLt N_6
  funext j
  obtain ⟨p, q, rfl⟩ : ∃ (p : Fin 5000) (q : Fin 4), j = ix2 p q := ⟨j 0, j 1, eq_ix2 j⟩
  have hp : p.val < 5000 := p.isLt
  have hP : t.val * 5000 + p.val < 500000 := by omega
  show k6_pay1 (iblk6 V c 0 t) (iblk6 V c 1 t) (iblk6 V c 2 t) (ix2 p q)
    = G h3 (V c main_v78) (V c main_arg8) (V c main_v79) (((cfg6.win 3).blk t).view.emb (ix2 p q))
  have hemb : ((cfg6.win 3).blk t).view.emb (ix2 p q) = ix2 (⟨t.val * 5000 + p.val, hP⟩ : Fin 500000) q := by
    funext a; apply Fin.ext
    match a with
    | ⟨0, _⟩ => show win6_3.index t (0 : Fin 2) * 5000 + 1 * p.val = t.val * 5000 + p.val; omega
    | ⟨1, _⟩ => show win6_3.index t (1 : Fin 2) * 4 + 1 * q.val = q.val; omega
  rw [hemb]
  refine pay_apply h3 (V c main_v78) (V c main_arg8) (V c main_v79) (iblk6 V c 0 t) (iblk6 V c 1 t) (iblk6 V c 2 t)
    ⟨t.val * 5000 + p.val, hP⟩ p q (fun k => ?_) (fun k => ?_) ?_
  · show V c main_v78 (((cfg6.win 0).blk t).view.emb (ix2 p k)) = V c main_v78 (ix2 (⟨t.val * 5000 + p.val, hP⟩ : Fin 500000) k)
    refine congrArg _ (funext fun a => Fin.ext ?_)
    match a with
    | ⟨0, _⟩ => show win6_0.index t (0 : Fin 2) * 5000 + 1 * p.val = t.val * 5000 + p.val; omega
    | ⟨1, _⟩ => show win6_0.index t (1 : Fin 2) * 2 + 1 * k.val = k.val; omega
  · show V c main_arg8 (((cfg6.win 1).blk t).view.emb (ix2 k q)) = V c main_arg8 (ix2 k q)
    refine congrArg _ (funext fun a => Fin.ext ?_)
    match a with
    | ⟨0, _⟩ => show win6_1.index t (0 : Fin 2) * 2 + 1 * k.val = k.val; omega
    | ⟨1, _⟩ => show win6_1.index t (1 : Fin 2) * 4 + 1 * q.val = q.val; omega
  · show V c main_v79 (((cfg6.win 2).blk t).view.emb (ix2 (0 : Fin 1) q)) = V c main_v79 (ix2 (0 : Fin 1) q)
    refine congrArg _ (funext fun a => Fin.ext ?_)
    match a with
    | ⟨0, _⟩ => show win6_2.index t (0 : Fin 2) * 1 + 1 * 0 = 0; omega
    | ⟨1, _⟩ => show win6_2.index t (1 : Fin 2) * 4 + 1 * q.val = q.val; omega

/-- An index of the array is in point `t`'s block iff each coordinate is in the block's range on its axis. -/
theorem mem_blk (t : Fin cfg6.N) (i : S500000x4.Idx) :
    i ∈ ((cfg6.win 3).blk t).view.set ↔ ∀ a : Fin 2, win6_3.index t a * S5000x4.size a ≤ (i a).val
      ∧ (i a).val < win6_3.index t a * S5000x4.size a + S5000x4.size a := by
  show i ∈ ((View.whole main_v80).slice (win6_3.rect t)).set ↔ _
  rw [View.set_slice_whole, Rect.mem_set_unit]
  exact Iff.rfl

/-- The blocks tile the array: row `r` lies in the block of point `r / 5000`. -/
theorem cover (i : S500000x4.Idx) :
    ∃ t : Fin cfg6.N, (cfg6.win 3).flush t = true ∧ i ∈ ((cfg6.win 3).blk t).view.set := by
  have hi0 : (i 0).val < 500000 := (i 0).isLt
  have hi1 : (i 1).val < 4 := (i 1).isLt
  have hlt : (i 0).val / 5000 < grid6.N := by rw [N_6]; omega
  obtain ⟨-, -, -, -, -, -, e30, e31⟩ := idx_facts ⟨(i 0).val / 5000, hlt⟩
  refine ⟨⟨(i 0).val / 5000, hlt⟩, flush6_3 _, ?_⟩
  rw [mem_blk]
  intro a
  match a with
  | ⟨0, _⟩ =>
    show win6_3.index ⟨(i 0).val / 5000, hlt⟩ (0 : Fin 2) * 5000 ≤ (i 0).val
      ∧ (i 0).val < win6_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win6_3.index ⟨(i 0).val / 5000, hlt⟩ (1 : Fin 2) * 4 ≤ (i 1).val
      ∧ (i 1).val < win6_3.index ⟨(i 0).val / 5000, hlt⟩ (1 : Fin 2) * 4 + 4
    rw [e31]; omega

/-- THE ARRAY the region leaves is the host's form of the layer on the arrays the region found. -/
theorem final (h3 : S1x4.BroadcastsInDim S500000x4 ![0, 1]) (c : Dev nD) :
    (dat6 V c).arrAt 3 cfg6.N = G h3 (V c main_v78) (V c main_arg8) (V c main_v79) :=
  (dat6 V c).arrAt_eq_of_cover 3 (G h3 (V c main_v78) (V c main_arg8) (V c main_v79))
    (fun t _ => flushed_eq V h3 c t) cover

end Cert.KernelIdeal.Region6

end
-- ==== Proof.Head.lean ====
/-
  The kernel's two results, as the reference's stages.

  The last region multiplies the node embeddings by the head's weight and adds the head's bias row: the program's first
  result is the reference's last stage (`out0`). The embeddings themselves, which the last region only reads, are still in
  their buffer when the program returns: its second result (`out1`).
-/
import proofs.«121053_j15650860827522_2_alg».proof.Proof.Chain3
import proofs.«121053_j15650860827522_2_alg».proof.Proof.Region6

set_option maxRecDepth 16384

noncomputable section

namespace Cert.KernelIdeal.Head

open Cert.KernelIdeal Cert.KernelIdeal.Gen Idealize.ShloMosaic Idealize.ShloMosaic.TcCoe Idealize.SL.Sem
open Idealize.ShloMosaic.ValueIdx Cert.ReferenceIdeal.ReadP

variable (m : (ℓ : Loc nD τ sig) → Buf (Elt Ideal) ℓ) (ρ : Dev nD → PrngReg) (c : Dev nD)

set_option quotPrecheck false

local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)

/-- The head's bias, laid out as a row. -/
theorem row4 : W15 m ρ c (Proc.devRef .tc main_v79) = val_main_v83 (F := Ideal) a9 :=
  HostFacts.row4_of (F := Ideal) (W14 m ρ c) a9
    ((Carry.to14 m ρ c main_arg9 (by simp [Carry.late3])).trans (Carry.at3 m ρ c main_arg9 (by simp [Carry.args])))

/-- The embeddings as the last region finds them. -/
theorem emb15 : W15 m ρ c (Proc.devRef .tc main_v78) = val_main_v81 (F := Ideal) a0 a1 a2 a3 a4 a5 a6 a7 :=
  (Carry.v78_W15 m ρ c).trans (Chain3.act3 m ρ c)

/-- THE FIRST RESULT: the head applied to the embeddings. -/
theorem out0 : W16 m ρ c (Proc.devRef .tc main_v80) = val_main_v85 (F := Ideal) a0 a1 a2 a3 a4 a5 a6 a7 a8 a9 := by
  refine (W16_arr m ρ c 3).trans ((Region6.final (V15 m ρ) Cert.ReferenceIdeal.Facts₀.bcast_S1x4_S500000x4_0_1 c).trans ?_)
  show Region6.G _ (W15 m ρ c (Proc.devRef .tc main_v78)) (W15 m ρ c (Proc.devRef .tc main_arg8))
    (W15 m ρ c (Proc.devRef .tc main_v79)) = _
  rw [emb15, row4,
    (Carry.to15 m ρ c main_arg8 (by simp [Carry.late3])).trans (Carry.at3 m ρ c main_arg8 (by simp [Carry.args]))]
  rfl

/-- THE SECOND RESULT: the embeddings, which the last region reads and does not write. -/
theorem out1 : W16 m ρ c (Proc.devRef .tc main_v78) = val_main_v81 (F := Ideal) a0 a1 a2 a3 a4 a5 a6 a7 :=
  (W16_arr m ρ c 0).trans (((dat6 (V15 m ρ) c).arrAt_in 0 rfl _).trans ((A_eq6 (V15 m ρ) c 0).trans (emb15 m ρ c)))

end Cert.KernelIdeal.Head

end
-- ==== Proof.lean ====
/-
  A three-layer graph convolution over 500,000 nodes and 8,000,000 edges (self loops added) with a linear head, whose
  per-node dense steps run as seven row-tiled regions, against the same network written with whole-array products.

  Per layer both programs compute `relu (Σ over edges into a node of (h · W)[source] · weight + b)`. The gather along the
  edges' sources, the scaling by the edge weights `d(src)^(-1/2) · d(dst)^(-1/2)` and the scatter-add along the destinations are
  the same host operations in both; so is the normalisation that computes the weights. What differs is how `h · W` and
  `+ b, relu` are computed: a region multiplies each block of 5,000 rows by the whole weight from the zero accumulator (its
  operands passed through a change of float format, which is the identity on the extended reals) and adds a bias row that is
  zero — and `y + 0 = y` for every extended real — where the reference has one product; a second region adds the bias row
  and rectifies block by block where the reference does so on the whole array. The head is one more product region, with
  the head's bias as its row. Entry by entry the two sides are the same sums and maxima, so no finiteness of the inputs is
  used: the precondition is never opened.

  The three frames are the generated ones (the reference's is its run with the results dropped); the idealization rewrote
  nothing, so `preserves` is trivial; `algebraic` puts the kernel's run with its results named (Proof/KernelRun.lean) beside
  the reference's run, both results read as the reference's stages of the arguments (Proof/Head.lean).
-/
import proofs.«121053_j15650860827522_2_alg».proof.Defs
import proofs.«121053_j15650860827522_2_alg».proof.Proof.Gen.Kernel
import proofs.«121053_j15650860827522_2_alg».proof.Proof.Gen.Kernel.Skeleton
import proofs.«121053_j15650860827522_2_alg».proof.Proof.Gen.Kernel.Launch
import proofs.«121053_j15650860827522_2_alg».proof.Proof.Gen.Kernel.Points
import proofs.«121053_j15650860827522_2_alg».proof.Proof.Gen.Kernel.Frame
import proofs.«121053_j15650860827522_2_alg».proof.Proof.Gen.KernelIdeal
import proofs.«121053_j15650860827522_2_alg».proof.Proof.Gen.KernelIdeal.Skeleton
import proofs.«121053_j15650860827522_2_alg».proof.Proof.Gen.KernelIdeal.Launch
import proofs.«121053_j15650860827522_2_alg».proof.Proof.Gen.KernelIdeal.Points
import proofs.«121053_j15650860827522_2_alg».proof.Proof.Gen.KernelIdeal.Frame
import proofs.«121053_j15650860827522_2_alg».proof.Proof.Gen.ReferenceIdeal
import proofs.«121053_j15650860827522_2_alg».proof.Proof.Gen.Pre_finite_inputs
import proofs.«121053_j15650860827522_2_alg».proof.Proof.KernelRun
import proofs.«121053_j15650860827522_2_alg».proof.Proof.Head
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- From memories agreeing on the arguments both programs end with the head's output and the node embeddings at the same
    functions of the arguments: the reference's last stages. -/
theorem algebraic : Cert.algebraic_KernelIdeal_ReferenceIdeal := by
  intro m ρ m' ρ' _ hagree
  refine ⟨fun c => Cert.KernelIdeal.Gen.W16 m ρ c (Proc.devRef .tc Cert.KernelIdeal.main_v80),
    fun c => Cert.KernelIdeal.Gen.W16 m ρ c (Proc.devRef .tc Cert.KernelIdeal.main_v78),
    Cert.KernelIdeal.Run.values (F := Ideal) m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨h0, h1, h2, h3, h4, h5, h6, h7, h8, h9⟩ := hagree c
    rw [Cert.ReferenceIdeal.ReadP.val_main_v85_eq, h0, h1, h2, h3, h4, h5, h6, h7, h8, h9]
    exact (Cert.KernelIdeal.Head.out0 m ρ c).symm
  · obtain ⟨h0, h1, h2, h3, h4, h5, h6, h7, h8, h9⟩ := hagree c
    rw [Cert.ReferenceIdeal.ReadP.val_main_v81_eq, h0, h1, h2, h3, h4, h5, h6, h7]
    exact (Cert.KernelIdeal.Head.out1 m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
